-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x2 .f32) (main_arg9 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S50000x2 : Shape := ⟨2, ![50000, 2]⟩
abbrev S2000x2 : Shape := ⟨2, ![2000, 2]⟩
abbrev S1x2 : Shape := ⟨2, ![1, 2]⟩
abbrev S2000 : Shape := ⟨1, ![2000]⟩

abbrev nBuf : Space → Nat
  | .hbm => 50
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x2, .f32⟩
  | .local _ .vmem, ⟨25, _⟩ => ⟨S2, .f32⟩
  | .local _ .vmem, ⟨26, _⟩ => ⟨S2000x2, .f32⟩
  | .local _ .vmem, ⟨27, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S50000x2.size a
  hwx2_3 : ∀ i : grid2.Coords, EltTy.bits .f32 = 32 ∨ (Rect.block (s := S50000x2) S2000x2.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x2 : Shape := ⟨2, ![50000, 2]⟩
abbrev S1x2 : Shape := ⟨2, ![1, 2]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x2, .f32⟩
  | .hbm, ⟨83, _⟩ => ⟨S1x2, .f32⟩
  | .hbm, ⟨84, _⟩ => ⟨S50000x2, .f32⟩
  | .hbm, ⟨85, _⟩ => ⟨S50000x2, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x2, .f32⟩
  | .hbm, ⟨93, _⟩ => ⟨S50000x2, .f32⟩
  | .hbm, ⟨94, _⟩ => ⟨S50000x2, .f32⟩
  | .hbm, ⟨95, _⟩ => ⟨S_, .f32⟩
  | .hbm, ⟨96, _⟩ => ⟨S50000, .f32⟩
  | .hbm, ⟨97, _⟩ => ⟨S50000x1, .f32⟩
  | .hbm, ⟨98, _⟩ => ⟨S50000x1, .f32⟩
  | .hbm, ⟨99, _⟩ => ⟨S50000x2, .f32⟩
  | .hbm, ⟨100, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_call2_cst_0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_cst_1 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_v60 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
/-
  The two dense stages of the network as functions of whole arrays, entry by entry, on the extended reals.

  A graph layer takes, for every node `p`, the sum `agg p` of its in-neighbours' feature rows and the number `cnt p`
  of those neighbours, divides the sum by `max (cnt p) 1` (a node without in-neighbours keeps the zero row), and
  returns `max (mean · Wl + x · Wr + b) 0`: entry `(p, q)` is
      max ((Σ_k (agg p k / max (cnt p) 1) · Wl k q  +  Σ_k x p k · Wr k q)  +  b q) 0,
  with the two sums and the bias added in exactly this grouping. The classifier takes the logits
  `z p j = Σ_k h p k · Wc k j + bc j`, subtracts their row maximum, and subtracts the logarithm of the row sum
  of the exponentials: entry `(p, j)` is  `(z p j − M p) − log (Σ_j' exp (z p j' − M p))`  with  `M p = max_j' z p j'`.

  Both are written over index functions so that a 2000-row block of a tiled computation and the whole 50000-row
  array are instances of one definition: the entry at row `p` depends on row `p` of the row-indexed operands only.
-/
import Idealize.ShloMosaic.PureOps.Ideal
import Idealize.ShloMosaic.Lib.ValueIdx

noncomputable section

namespace Cert.Dense

open Idealize.ShloMosaic Idealize.ShloMosaic.ValueIdx

/-- The number one and the number zero as the programs spell them: the same 32-bit words on both sides. -/
abbrev one32 : EReal := Ideal.ofBits .f32 0x3F800000#32
abbrev zero32 : EReal := Ideal.ofBits .f32 0x00000000#32
abbrev negInf32 : EReal := Ideal.ofBits .f32 0xFF800000#32

/-- Entry `(p, q)` of a graph layer over `n` rows of width `d`: the mean of the aggregated row times `Wl`, plus the
    node's own row times `Wr`, plus the bias, clamped below at zero. -/
def layerAt {n d : ℕ} (agg : Fin n → Fin d → EReal) (cnt : Fin n → EReal) (x : Fin n → Fin d → EReal)
    (wl wr : Fin d → Fin d → EReal) (b : Fin d → EReal) (p : Fin n) (q : Fin d) : EReal :=
  max (((∑ k : Fin d, Ideal.div (agg p k) (max (cnt p) one32) * wl k q) + ∑ k : Fin d, x p k * wr k q) + b q) zero32

/-- The logits of row `p`: `h p · Wc + bc`. -/
def logitAt {n d o : ℕ} (h : Fin n → Fin d → EReal) (wc : Fin d → Fin o → EReal) (bc : Fin o → EReal)
    (p : Fin n) (j : Fin o) : EReal :=
  (∑ k : Fin d, h p k * wc k j) + bc j

/-- A layer's entry at row `p` reads row `p` of the three row-indexed operands and nothing else of them: two layers
    over different row ranges agree at rows whose operand rows agree. -/
theorem layerAt_congr {n n' d : ℕ} {agg : Fin n → Fin d → EReal} {cnt : Fin n → EReal} {x : Fin n → Fin d → EReal}
    {agg' : Fin n' → Fin d → EReal} {cnt' : Fin n' → EReal} {x' : Fin n' → Fin d → EReal}
    {wl wr wl' wr' : Fin d → Fin d → EReal} {b b' : Fin d → EReal} {p : Fin n} {p' : Fin n'} {q q' : Fin d}
    (h1 : ∀ k, agg p k = agg' p' k) (h2 : cnt p = cnt' p') (h3 : ∀ k, x p k = x' p' k)
    (hl : wl = wl') (hr : wr = wr') (hb : b = b') (hq : q = q') :
    layerAt agg cnt x wl wr b p q = layerAt agg' cnt' x' wl' wr' b' p' q' := by
  subst hl hr hb hq
  unfold layerAt
  simp only [h1, h2, h3]

/-- The largest logit of row `p`, as a fold of `max` from −∞ over the row. -/
def rowMax {n o : ℕ} (z : Fin n → Fin o → EReal) (p : Fin n) : EReal :=
  (Finset.univ : Finset (Fin o)).fold max negInf32 (fun j => z p j)

/-- Entry `(p, j)` of the row-wise log-softmax of `z`: the logit shifted by the row maximum, minus the logarithm of
    the row sum of the exponentials of the shifted logits. -/
def logSoftmaxAt {n o : ℕ} (z : Fin n → Fin o → EReal) (p : Fin n) (j : Fin o) : EReal :=
  (z p j - rowMax z p) - Ideal.log (∑ j' : Fin o, Ideal.exp (z p j' - rowMax z p))

/-- The same for the logits: row `p` of the logits reads row `p` of the hidden features. -/
theorem logSoftmaxAt_congr {n n' o : ℕ} {z : Fin n → Fin o → EReal} {z' : Fin n' → Fin o → EReal} {p : Fin n} {p' : Fin n'}
    {j j' : Fin o} (h : ∀ c, z p c = z' p' c) (hj : j = j') : logSoftmaxAt z p j = logSoftmaxAt z' p' j' := by
  subst hj
  unfold logSoftmaxAt rowMax
  simp only [h]

theorem logitAt_congr {n n' d o : ℕ} {h : Fin n → Fin d → EReal} {h' : Fin n' → Fin d → EReal} {wc wc' : Fin d → Fin o → EReal}
    {bc bc' : Fin o → EReal} {p : Fin n} {p' : Fin n'} {j : Fin o} (h1 : ∀ k, h p k = h' p' k) (hw : wc = wc') (hb : bc = bc') :
    logitAt h wc bc p j = logitAt h' wc' bc' p' j := by
  subst hw hb
  unfold logitAt
  simp only [h1]

/-! ## The stages over whole arrays of the network's sizes -/

/-- A graph layer over the 50000 nodes: the neighbour counts come as a column. -/
def layerArr (agg : (⟨2, ![50000, 128]⟩ : Shape).Idx → EReal) (cnt : (⟨2, ![50000, 1]⟩ : Shape).Idx → EReal)
    (x : (⟨2, ![50000, 128]⟩ : Shape).Idx → EReal) (wl wr : (⟨2, ![128, 128]⟩ : Shape).Idx → EReal)
    (b : (⟨1, ![128]⟩ : Shape).Idx → EReal) : (⟨2, ![50000, 128]⟩ : Shape).Idx → EReal :=
  fun i => layerAt (fun a k => agg (ix2 a k)) (fun a => cnt (ix2 a (0 : Fin 1))) (fun a k => x (ix2 a k))
    (fun k q => wl (ix2 k q)) (fun k q => wr (ix2 k q)) (fun q => b (ix1 q)) (i 0) (i 1)

theorem layerArr_ix2 (agg : (⟨2, ![50000, 128]⟩ : Shape).Idx → EReal) (cnt : (⟨2, ![50000, 1]⟩ : Shape).Idx → EReal)
    (x : (⟨2, ![50000, 128]⟩ : Shape).Idx → EReal) (wl wr : (⟨2, ![128, 128]⟩ : Shape).Idx → EReal)
    (b : (⟨1, ![128]⟩ : Shape).Idx → EReal) (p : Fin 50000) (q : Fin 128) :
    layerArr agg cnt x wl wr b (ix2 p q)
      = layerAt (fun a k => agg (ix2 a k)) (fun a => cnt (ix2 a (0 : Fin 1))) (fun a k => x (ix2 a k))
          (fun k q => wl (ix2 k q)) (fun k q => wr (ix2 k q)) (fun q => b (ix1 q)) p q := rfl

/-- The classifier over the 50000 nodes. -/
def clsArr (h : (⟨2, ![50000, 128]⟩ : Shape).Idx → EReal) (wc : (⟨2, ![128, 2]⟩ : Shape).Idx → EReal)
    (bc : (⟨1, ![2]⟩ : Shape).Idx → EReal) : (⟨2, ![50000, 2]⟩ : Shape).Idx → EReal :=
  fun i => logSoftmaxAt (logitAt (fun a k => h (ix2 a k)) (fun k j => wc (ix2 k j)) (fun j => bc (ix1 j))) (i 0) (i 1)

theorem clsArr_ix2 (h : (⟨2, ![50000, 128]⟩ : Shape).Idx → EReal) (wc : (⟨2, ![128, 2]⟩ : Shape).Idx → EReal)
    (bc : (⟨1, ![2]⟩ : Shape).Idx → EReal) (p : Fin 50000) (j : Fin 2) :
    clsArr h wc bc (ix2 p j)
      = logSoftmaxAt (logitAt (fun a k => h (ix2 a k)) (fun k j => wc (ix2 k j)) (fun j => bc (ix1 j))) p j := rfl

end Cert.Dense

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KBody.lean ====
/-
  What one grid point of each of the three tiled stages computes, entry by entry.

  A point of a graph layer holds 2000 rows of the aggregated features, of the neighbour counts (a column) and of the
  node features, and the whole of both weight matrices and of the bias. Its result at `(p, q)` is the layer's entry
  `Cert.Dense.layerAt` of those 2000 rows: the division by `max count 1` acts row by row, each matrix product into a
  zero accumulator is the sum over the 128 contracted coordinates, and the changes of float format are the identity
  on the extended reals.
-/
import proofs.«174961_j57131654972028_1_alg».proof.Proof.Gen.KernelIdeal.Skeleton
import proofs.«174961_j57131654972028_1_alg».proof.Proof.Spec
import proofs.«174961_j57131654972028_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Dense
open Idealize.ShloMosaic Idealize.ShloMosaic.ValueIdx

/-! ## The matrix products into a zero accumulator, at an index -/

theorem mmA_l0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mmA_l1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
theorem mmA_r0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
theorem mmA_r1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 block times a 128×128 matrix, into a zero accumulator, at `(p, q)`: the sum over the contracted
    coordinate `k` of the block's `(p, k)` times the matrix's `(k, q)`. -/
theorem mm128_at (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact mmA_l0 _ _
      | ⟨1, _⟩ => exact (mmA_l1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (mmA_r0 _ _).trans hk
      | ⟨1, _⟩ => exact mmA_r1 _ _)
  rw [el, er]

theorem mmB_l0 (i : S2000x2.Idx) (c : dot_S2000x128_S128x2_S2000x2_1_0_0_1_n_n.contr.Idx) : (dot_S2000x128_S128x2_S2000x2_1_0_0_1_n_n.lhsIdx i c 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem mmB_l1 (i : S2000x2.Idx) (c : dot_S2000x128_S128x2_S2000x2_1_0_0_1_n_n.contr.Idx) : (dot_S2000x128_S128x2_S2000x2_1_0_0_1_n_n.lhsIdx i c 1).val = (c ⟨0, by decide⟩).val :=
  dot_S2000x128_S128x2_S2000x2_1_0_0_1_n_n.lhsIdx_val_of_single rfl i c
theorem mmB_r0 (i : S2000x2.Idx) (c : dot_S2000x128_S128x2_S2000x2_1_0_0_1_n_n.contr.Idx) : (dot_S2000x128_S128x2_S2000x2_1_0_0_1_n_n.rhsIdx i c 0).val = (c ⟨0, by decide⟩).val :=
  dot_S2000x128_S128x2_S2000x2_1_0_0_1_n_n.rhsIdx_val_of_single rfl i c
theorem mmB_r1 (i : S2000x2.Idx) (c : dot_S2000x128_S128x2_S2000x2_1_0_0_1_n_n.contr.Idx) : (dot_S2000x128_S128x2_S2000x2_1_0_0_1_n_n.rhsIdx i c 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- A 2000×128 block times the 128×2 classifier matrix, into a zero accumulator, at `(p, q)`: the same sum over `k`. -/
theorem mm2_at (l : FVec Ideal S2000x128 .bf16) (r : FVec Ideal S128x2 .bf16) (p : Fin 2000) (q : Fin 2) :
    matmul dot_S2000x128_S128x2_S2000x2_1_0_0_1_n_n none l r (constant (F := Ideal) S2000x2 .f32 0x00000000#32) (ix2 p q)
      = ∑ k : Fin 128, l (ix2 p k) * r (ix2 k q) := by
  refine (Ideal.matmul_constant_zero_apply dot_S2000x128_S128x2_S2000x2_1_0_0_1_n_n none l r (ix2 p q)).trans ?_
  rw [← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p q) ((contrEquiv1 dot_S2000x128_S128x2_S2000x2_1_0_0_1_n_n 128 rfl rfl).symm k) = ix2 p k :=
    funext fun a => Fin.ext (by
      match a with
      | ⟨0, _⟩ => exact mmB_l0 _ _
      | ⟨1, _⟩ => exact (mmB_l1 _ _).trans hk)
  have er : dot_S2000x128_S128x2_S2000x2_1_0_0_1_n_n.rhsIdx (ix2 p q) ((contrEquiv1 dot_S2000x128_S128x2_S2000x2_1_0_0_1_n_n 128 rfl rfl).symm k) = ix2 k q :=
    funext fun a => Fin.ext (by
      match a with
      | ⟨0, _⟩ => exact (mmB_r0 _ _).trans hk
      | ⟨1, _⟩ => exact mmB_r1 _ _)
  rw [el, er]

/-! ## The graph layers' points -/

/-- One point of the first graph layer at `(p, q)`: the layer's entry of the point's 2000 rows. -/
theorem k0_pay1_at (v0 : FVec Ideal S2000x1 .f32) (v4 v9 : FVec Ideal S2000x128 .f32) (v11 v13 : FVec Ideal S128x128 .f32)
    (v18 : FVec Ideal S128 .f32) (p : Fin 2000) (q : Fin 128) :
    k0_pay1 (F := Ideal) v0 v4 v9 v11 v13 v18 (ix2 p q)
      = layerAt (fun a k => v4 (ix2 a k)) (fun a => v0 (ix2 a (0 : Fin 1))) (fun a k => v9 (ix2 a k))
          (fun k c => v11 (ix2 k c)) (fun k c => v13 (ix2 k c)) (fun c => v18 (ix1 c)) p q := by
  unfold k0_pay1
  simp only [maximumf_apply, addf_apply, broadcast_apply]
  rw [mm128_at, mm128_at, broadcastTo_1b_ab_apply, shapeCast_a_1a_apply]
  unfold layerAt
  simp only [truncf_apply, divf_apply, shapeCast_self, broadcastTo_a1_ab_apply, maximumf_apply, broadcast_apply]
  rfl

/-- One point of the second graph layer at `(p, q)`: the same entry, of that layer's operands. -/
theorem k1_pay1_at (v0 : FVec Ideal S2000x1 .f32) (v4 v9 : FVec Ideal S2000x128 .f32) (v12 v14 : FVec Ideal S128x128 .f32)
    (v19 : FVec Ideal S128 .f32) (p : Fin 2000) (q : Fin 128) :
    k1_pay1 (F := Ideal) v0 v4 v9 v12 v14 v19 (ix2 p q)
      = layerAt (fun a k => v4 (ix2 a k)) (fun a => v0 (ix2 a (0 : Fin 1))) (fun a k => v9 (ix2 a k))
          (fun k c => v12 (ix2 k c)) (fun k c => v14 (ix2 k c)) (fun c => v19 (ix1 c)) p q := by
  unfold k1_pay1
  simp only [maximumf_apply, addf_apply, broadcast_apply]
  rw [mm128_at, mm128_at, broadcastTo_1b_ab_apply, shapeCast_a_1a_apply]
  unfold layerAt
  simp only [truncf_apply, divf_apply, shapeCast_self, broadcastTo_a1_ab_apply, maximumf_apply, broadcast_apply]
  rfl

/-! ## The classifier's point -/

/-- Row `p` of a 2000×2 block with coordinate `k` inserted on the reduced axis is the entry `(p, k)`. -/
theorem lift_row (p : Fin 2000) (k : Fin (S2000x2.size 1)) :
    reduces_S2000x2_S2000.lift (ix1 p) k = ix2 p (⟨k.val, k.isLt⟩ : Fin 2) := by
  funext c; apply Fin.ext
  fin_cases c <;> rfl

/-- The lane maximum of a 2000×2 block from −∞, at row `p`: the fold of `max` over the row's two entries. -/
theorem rowMax_at (Z : FVec Ideal S2000x2 .f32) (p : Fin 2000) :
    multiReduction .maximumf [1] S2000 Z 0xFF800000#32 reduces_S2000x2_S2000 (.inl rfl) rfl (ix1 p)
      = (Finset.univ : Finset (Fin 2)).fold max negInf32 (fun j => Z (ix2 p j)) := by
  refine (Ideal.multiReduction_maximumf_single Z 0xFF800000#32 reduces_S2000x2_S2000 (.inl rfl) rfl (ix1 p)).trans ?_
  show (Finset.univ : Finset (Fin 2)).fold max (Ideal.ofBits .f32 0xFF800000#32) (Z ∘ reduces_S2000x2_S2000.lift (ix1 p)) = _
  congr 1
  funext k
  exact congrArg Z (lift_row p k)

/-- The lane sum of a 2000×2 block, at row `p`: the sum of the row's two entries. -/
theorem rowSum_at (E : FVec Ideal S2000x2 .f32) (p : Fin 2000) :
    multiReduction .add [1] S2000 E 0x00000000#32 reduces_S2000x2_S2000 (.inl rfl) rfl (ix1 p)
      = ∑ j : Fin 2, E (ix2 p j) := by
  refine (Ideal.multiReduction_add_single E 0x00000000#32 reduces_S2000x2_S2000 (.inl rfl) rfl (ix1 p)).trans ?_
  show ∑ k : Fin 2, E (reduces_S2000x2_S2000.lift (ix1 p) k) = _
  refine Finset.sum_congr rfl fun k _ => ?_
  exact congrArg E (lift_row p k)

/-- The logits of a point: the block of hidden features times the classifier matrix, plus the bias row. -/
theorem logit_at (v0 : FVec Ideal S2000x128 .f32) (v3 : FVec Ideal S128x2 .f32) (v6 : FVec Ideal S2 .f32) (p : Fin 2000) (j : Fin 2) :
    addf (matmul dot_S2000x128_S128x2_S2000x2_1_0_0_1_n_n none (truncf .bf16 (shapeCast S2000x128 v0 shapeCasts_S2000x128_S2000x128) bitsLt_bf16_f32)
        (truncf .bf16 v3 bitsLt_bf16_f32) (constant (F := Ideal) S2000x2 .f32 0x00000000#32))
      (broadcastTo S2000x2 (shapeCast S1x2 v6 shapeCasts_S2_S1x2) broadcasts_S1x2_S2000x2) (ix2 p j)
      = logitAt (fun a k => v0 (ix2 a k)) (fun k c => v3 (ix2 k c)) (fun c => v6 (ix1 c)) p j := by
  rw [addf_apply, mm2_at, broadcastTo_1b_ab_apply, shapeCast_a_1a_apply]
  unfold logitAt
  simp only [truncf_apply, shapeCast_self]

theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-- Shifting a 2000×2 block by its row maxima and subtracting the logarithm of the row sums of the exponentials
    gives, at `(p, j)`, the log-softmax entry of the block: both row statistics are kept as columns and repeated
    along the row, so each is read at row `p`. -/
theorem logSoftmax_block (Z : FVec Ideal S2000x2 .f32) (p : Fin 2000) (j : Fin 2) :
    (Z (ix2 p j) - (broadcastTo S2000x2 (shapeCast S2000x1 (multiReduction .maximumf [1] S2000 Z 0xFF800000#32 reduces_S2000x2_S2000 (.inl rfl) rfl) shapeCasts_S2000_S2000x1) broadcasts_S2000x1_S2000x2) (ix2 p j))
      - broadcastTo S2000x2 (log (shapeCast S2000x1 (multiReduction .add [1] S2000 (exp (subf Z (broadcastTo S2000x2 (shapeCast S2000x1 (multiReduction .maximumf [1] S2000 Z 0xFF800000#32 reduces_S2000x2_S2000 (.inl rfl) rfl) shapeCasts_S2000_S2000x1) broadcasts_S2000x1_S2000x2))) 0x00000000#32 reduces_S2000x2_S2000 (.inl rfl) rfl) shapeCasts_S2000_S2000x1)) broadcasts_S2000x1_S2000x2 (ix2 p j)
      = logSoftmaxAt (fun a c => Z (ix2 a c)) p j := by
  simp only [broadcastTo_a1_ab_apply, log_at, shapeCast_a_a1_apply]
  unfold logSoftmaxAt rowMax
  refine congrArg₂ (· - ·) (congrArg₂ (· - ·) rfl (rowMax_at Z p)) (congrArg Ideal.log ?_)
  refine (rowSum_at _ p).trans ?_
  refine Finset.sum_congr rfl fun j' _ => ?_
  show Ideal.exp (Z (ix2 p j') - broadcastTo S2000x2 (shapeCast S2000x1 _ shapeCasts_S2000_S2000x1) broadcasts_S2000x1_S2000x2 (ix2 p j')) = _
  rw [broadcastTo_a1_ab_apply, shapeCast_a_a1_apply]
  exact congrArg (fun t => Ideal.exp (Z (ix2 p j') - t)) (rowMax_at Z p)

/-- One point of the classifier at `(p, j)`: the log-softmax entry of the point's logits. -/
theorem k2_pay1_at (v0 : FVec Ideal S2000x128 .f32) (v3 : FVec Ideal S128x2 .f32) (v6 : FVec Ideal S2 .f32) (p : Fin 2000) (j : Fin 2) :
    k2_pay1 (F := Ideal) v0 v3 v6 (ix2 p j)
      = logSoftmaxAt (logitAt (fun a k => v0 (ix2 a k)) (fun k c => v3 (ix2 k c)) (fun c => v6 (ix1 c))) p j := by
  unfold k2_pay1
  simp only [subf_apply]
  refine (logSoftmax_block _ p j).trans ?_
  congr 1
  funext a c
  exact logit_at v0 v3 v6 a c

/-! ## The same three facts at an arbitrary index of the point's result -/

theorem k0_pay1_idx (v0 : FVec Ideal S2000x1 .f32) (v4 v9 : FVec Ideal S2000x128 .f32) (v11 v13 : FVec Ideal S128x128 .f32)
    (v18 : FVec Ideal S128 .f32) (y : S2000x128.Idx) :
    k0_pay1 (F := Ideal) v0 v4 v9 v11 v13 v18 y
      = layerAt (fun a k => v4 (ix2 a k)) (fun a => v0 (ix2 a (0 : Fin 1))) (fun a k => v9 (ix2 a k))
          (fun k c => v11 (ix2 k c)) (fun k c => v13 (ix2 k c)) (fun c => v18 (ix1 c)) (y 0) (y 1) :=
  (congrArg (k0_pay1 (F := Ideal) v0 v4 v9 v11 v13 v18) (eq_ix2 y)).trans (k0_pay1_at v0 v4 v9 v11 v13 v18 (y 0) (y 1))

theorem k1_pay1_idx (v0 : FVec Ideal S2000x1 .f32) (v4 v9 : FVec Ideal S2000x128 .f32) (v12 v14 : FVec Ideal S128x128 .f32)
    (v19 : FVec Ideal S128 .f32) (y : S2000x128.Idx) :
    k1_pay1 (F := Ideal) v0 v4 v9 v12 v14 v19 y
      = layerAt (fun a k => v4 (ix2 a k)) (fun a => v0 (ix2 a (0 : Fin 1))) (fun a k => v9 (ix2 a k))
          (fun k c => v12 (ix2 k c)) (fun k c => v14 (ix2 k c)) (fun c => v19 (ix1 c)) (y 0) (y 1) :=
  (congrArg (k1_pay1 (F := Ideal) v0 v4 v9 v12 v14 v19) (eq_ix2 y)).trans (k1_pay1_at v0 v4 v9 v12 v14 v19 (y 0) (y 1))

theorem k2_pay1_idx (v0 : FVec Ideal S2000x128 .f32) (v3 : FVec Ideal S128x2 .f32) (v6 : FVec Ideal S2 .f32) (y : S2000x2.Idx) :
    k2_pay1 (F := Ideal) v0 v3 v6 y
      = logSoftmaxAt (logitAt (fun a k => v0 (ix2 a k)) (fun k c => v3 (ix2 k c)) (fun c => v6 (ix1 c))) (y 0) (y 1) :=
  (congrArg (k2_pay1 (F := Ideal) v0 v3 v6) (eq_ix2 y)).trans (k2_pay1_at v0 v3 v6 (y 0) (y 1))

end Cert.KernelIdeal.Body

end
-- ==== Proof.KBlocks.lean ====
/-
  From the points to the whole arrays: what each of the three tiled stages leaves in its result array, as one
  function of the arrays it finds when it starts.

  Every stage walks 25 points; point `t` holds rows `2000·t … 2000·t + 1999` of each row-indexed operand and the
  whole of the weight matrices and biases, and writes back rows `2000·t … 2000·t + 1999` of the result. A layer's
  entry at a row reads that row of its operands only, so what point `t` writes back is block `t` of the layer taken
  over all 50000 rows; the 25 blocks tile the 50000 rows, hence the result array IS that layer. The same for the
  classifier.
-/
import proofs.«174961_j57131654972028_1_alg».proof.Proof.Gen.KernelIdeal.Frame
import proofs.«174961_j57131654972028_1_alg».proof.Proof.KBody
import Idealize.ShloMosaic.Lib.Pipeline.Value

set_option maxRecDepth 16384

noncomputable section

namespace Cert.KernelIdeal.Blocks

open Cert.KernelIdeal Cert.KernelIdeal.Gen Cert.KernelIdeal.Body Cert.Dense
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first graph layer -/

/-- The printed index maps over the grid: the row-indexed windows and the result move together, block `t` at point
    `t`; the matrices and the bias stay at block zero. -/
theorem idx0 : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = 0 ∧ win0_4.index t 1 = 0 ∧ win0_5.index t 0 = 0
    ∧ win0_6.index t 0 = t.val ∧ win0_6.index t 1 = 0 :=
  (by decide +kernel : ∀ t : Fin grid0.N, _)

/-- Window 0 at point `t` holds rows `2000·t …` of its array. -/
theorem iblk0_0_apply (c : Dev nD) (t : Fin cfg0.N) (x : S2000x128.Idx) (k : S50000x128.Idx)
    (hk0 : (k 0).val = 2000 * t.val + (x 0).val) (hk1 : (k 1).val = (x 1).val) :
    (iblk0 V c 0 t : Vec Ideal S2000x128 .f32) x = (V c main_v18 : S50000x128.Idx → Elt Ideal .f32) k := by
  have hi := idx0 t
  unfold iblk0
  rw [View.read_apply]
  show V c main_v18 _ = V c main_v18 _
  congr 1
  funext a
  apply Fin.ext
  match a with
  | ⟨0, _⟩ => show win0_0.index t 0 * 2000 + 1 * (x 0).val = (k 0).val; omega
  | ⟨1, _⟩ => show win0_0.index t 1 * 128 + 1 * (x 1).val = (k 1).val; omega

/-- Window 1 at point `t` holds rows `2000·t …` of its array. -/
theorem iblk0_1_apply (c : Dev nD) (t : Fin cfg0.N) (x : S2000x1.Idx) (k : S50000x1.Idx)
    (hk0 : (k 0).val = 2000 * t.val + (x 0).val) (hk1 : (k 1).val = (x 1).val) :
    (iblk0 V c 1 t : Vec Ideal S2000x1 .f32) x = (V c main_v8 : S50000x1.Idx → Elt Ideal .f32) k := by
  have hi := idx0 t
  unfold iblk0
  rw [View.read_apply]
  show V c main_v8 _ = V c main_v8 _
  congr 1
  funext a
  apply Fin.ext
  match a with
  | ⟨0, _⟩ => show win0_1.index t 0 * 2000 + 1 * (x 0).val = (k 0).val; omega
  | ⟨1, _⟩ => show win0_1.index t 1 * 1 + 1 * (x 1).val = (k 1).val; omega

/-- Window 2 at point `t` holds rows `2000·t …` of its array. -/
theorem iblk0_2_apply (c : Dev nD) (t : Fin cfg0.N) (x : S2000x128.Idx) (k : S50000x128.Idx)
    (hk0 : (k 0).val = 2000 * t.val + (x 0).val) (hk1 : (k 1).val = (x 1).val) :
    (iblk0 V c 2 t : Vec Ideal S2000x128 .f32) x = (V c main_arg0 : S50000x128.Idx → Elt Ideal .f32) k := by
  have hi := idx0 t
  unfold iblk0
  rw [View.read_apply]
  show V c main_arg0 _ = V c main_arg0 _
  congr 1
  funext a
  apply Fin.ext
  match a with
  | ⟨0, _⟩ => show win0_2.index t 0 * 2000 + 1 * (x 0).val = (k 0).val; omega
  | ⟨1, _⟩ => show win0_2.index t 1 * 128 + 1 * (x 1).val = (k 1).val; omega

/-- Window 3 holds the whole of its array at every point. -/
theorem iblk0_3_eq (c : Dev nD) (t : Fin cfg0.N) :
    (iblk0 V c 3 t : Vec Ideal S128x128 .f32) = (V c main_arg2 : S128x128.Idx → Elt Ideal .f32) := by
  have hi := idx0 t
  funext x
  unfold iblk0
  rw [View.read_apply]
  show V c main_arg2 _ = V c main_arg2 _
  congr 1
  funext a
  apply Fin.ext
  match a with
  | ⟨0, _⟩ => show win0_3.index t 0 * 128 + 1 * (x 0).val = (x 0).val; omega
  | ⟨1, _⟩ => show win0_3.index t 1 * 128 + 1 * (x 1).val = (x 1).val; omega

/-- Window 4 holds the whole of its array at every point. -/
theorem iblk0_4_eq (c : Dev nD) (t : Fin cfg0.N) :
    (iblk0 V c 4 t : Vec Ideal S128x128 .f32) = (V c main_arg3 : S128x128.Idx → Elt Ideal .f32) := by
  have hi := idx0 t
  funext x
  unfold iblk0
  rw [View.read_apply]
  show V c main_arg3 _ = V c main_arg3 _
  congr 1
  funext a
  apply Fin.ext
  match a with
  | ⟨0, _⟩ => show win0_4.index t 0 * 128 + 1 * (x 0).val = (x 0).val; omega
  | ⟨1, _⟩ => show win0_4.index t 1 * 128 + 1 * (x 1).val = (x 1).val; omega

/-- Window 5 holds the whole of its array at every point. -/
theorem iblk0_5_eq (c : Dev nD) (t : Fin cfg0.N) :
    (iblk0 V c 5 t : Vec Ideal S128 .f32) = (V c main_arg4 : S128.Idx → Elt Ideal .f32) := by
  have hi := idx0 t
  funext x
  unfold iblk0
  rw [View.read_apply]
  show V c main_arg4 _ = V c main_arg4 _
  congr 1
  funext a
  apply Fin.ext
  match a with
  | ⟨0, _⟩ => show win0_5.index t 0 * 128 + 1 * (x 0).val = (x 0).val; omega

/-- One point over variables: if the three row-indexed blocks are rows `2000·t …` of three arrays, the point's result
    at `y` is the layer over all rows of those arrays at the index `i` that `y` is written back to. -/
theorem point0_eq (x0 x2 : FVec Ideal S2000x128 .f32) (x1 : FVec Ideal S2000x1 .f32) (x3 x4 : FVec Ideal S128x128 .f32)
    (x5 : FVec Ideal S128 .f32) (A X : S50000x128.Idx → EReal) (C : S50000x1.Idx → EReal)
    (y : S2000x128.Idx) (i : S50000x128.Idx)
    (h0 : ∀ k : Fin 128, x0 (ix2 (y 0) k) = A (ix2 (i 0) k)) (h1 : x1 (ix2 (y 0) (0 : Fin 1)) = C (ix2 (i 0) (0 : Fin 1)))
    (h2 : ∀ k : Fin 128, x2 (ix2 (y 0) k) = X (ix2 (i 0) k)) (hq : (y 1).val = (i 1).val) :
    out0_6 (F := Ideal) x0 x1 x2 x3 x4 x5 y = layerArr A C X x3 x4 x5 i := by
  unfold out0_6
  rw [View.canon_unit_zero hz2]
  simp only [View.ld_unit_zero (S := S2000x1) hz2, View.ld_unit_zero (S := S2000x128) hz2, View.ld_unit_zero (S := S128x128) hz2,
    View.ld_unit_zero (S := S128) hz1]
  refine (k0_pay1_idx x1 x0 x2 x3 x4 x5 y).trans ?_
  unfold layerArr
  exact layerAt_congr h0 h1 h2 rfl rfl rfl (Fin.ext hq)

/-- What point `t` writes back is block `t` of the layer taken over all 50000 rows of the arrays the stage finds. -/
theorem flushed0 (c : Dev nD) (t : Fin cfg0.N) :
    (dat0 V c).flushed 6 t = ((cfg0.win 6).blk t).view.read (Elt Ideal)
      (layerArr (V c main_v18) (V c main_v8) (V c main_arg0) (V c main_arg2) (V c main_arg3) (V c main_arg4)) := by
  have hi := idx0 t
  show (cfg0.win 6).cut (grid0.coords t) ((dat0 V c).after 6 t) = _
  rw [after0_6, iblk0_3_eq V c t, iblk0_4_eq V c t, iblk0_5_eq V c t]
  funext j
  rw [View.read_apply]
  show out0_6 (iblk0 V c 0 t) (iblk0 V c 1 t) (iblk0 V c 2 t) (V c main_arg2) (V c main_arg3) (V c main_arg4) j
    = layerArr (V c main_v18) (V c main_v8) (V c main_arg0) (V c main_arg2) (V c main_arg3) (V c main_arg4) (((cfg0.win 6).blk t).view.emb j)
  have hrow : ((((cfg0.win 6).blk t).view.emb j) 0).val = 2000 * t.val + (j 0).val := by
    show win0_6.index t 0 * 2000 + 1 * (j 0).val = 2000 * t.val + (j 0).val; omega
  have hcol : (j 1).val = ((((cfg0.win 6).blk t).view.emb j) 1).val := by
    show (j 1).val = win0_6.index t 1 * 128 + 1 * (j 1).val; omega
  exact point0_eq (iblk0 V c 0 t) (iblk0 V c 2 t) (iblk0 V c 1 t) (V c main_arg2) (V c main_arg3) (V c main_arg4)
    (V c main_v18) (V c main_arg0) (V c main_v8) j (((cfg0.win 6).blk t).view.emb j)
    (fun k => iblk0_0_apply V c t (ix2 (j 0) k) (ix2 ((((cfg0.win 6).blk t).view.emb j) 0) k) hrow rfl)
    (iblk0_1_apply V c t (ix2 (j 0) (0 : Fin 1)) (ix2 ((((cfg0.win 6).blk t).view.emb j) 0) (0 : Fin 1)) hrow rfl)
    (fun k => iblk0_2_apply V c t (ix2 (j 0) k) (ix2 ((((cfg0.win 6).blk t).view.emb j) 0) k) hrow rfl)
    hcol

/-- The stage's result array ends holding the layer of the arrays the stage finds: the 25 blocks of 2000 rows tile
    the 50000 rows, row `r` lying in the block of point `r / 2000`. -/
theorem final0 (c : Dev nD) :
    (dat0 V c).arrAt 6 cfg0.N = layerArr (V c main_v18) (V c main_v8) (V c main_arg0) (V c main_arg2) (V c main_arg3) (V c main_arg4) :=
  (dat0 V c).arrAt_eq_of_cover 6 _ (fun t _ => flushed0 V c t) fun i => by
    have hr : (i 0 : Nat) < 50000 := (i 0).isLt
    have hc : (i 1 : Nat) < 128 := (i 1).isLt
    have hN : cfg0.N = 25 := N_0
    obtain ⟨tt, htt⟩ : ∃ tt : Fin cfg0.N, tt.val = (i 0 : Nat) / 2000 := ⟨⟨(i 0 : Nat) / 2000, by rw [hN]; omega⟩, rfl⟩
    have hi := idx0 tt
    refine ⟨tt, flush0_6 tt, ?_⟩
    show i ∈ ((View.whole main_v19).slice (win0_6.rect tt)).set
    rw [View.set_slice_whole, Rect.mem_set_unit]
    intro a
    match a with
    | ⟨0, _⟩ =>
      show win0_6.index tt 0 * 2000 ≤ (i 0 : Nat) ∧ (i 0 : Nat) < win0_6.index tt 0 * 2000 + 2000
      have e : win0_6.index tt 0 = tt.val := hi.2.2.2.2.2.2.2.2.2.2.2.1
      omega
    | ⟨1, _⟩ =>
      show win0_6.index tt 1 * 128 ≤ (i 1 : Nat) ∧ (i 1 : Nat) < win0_6.index tt 1 * 128 + 128
      have e : win0_6.index tt 1 = 0 := hi.2.2.2.2.2.2.2.2.2.2.2.2
      omega

/-! ## The second graph layer -/

/-- The printed index maps over the grid: the row-indexed windows and the result move together, block `t` at point
    `t`; the matrices and the bias stay at block zero. -/
theorem idx1 : ∀ t : Fin cfg1.N,
    win1_0.index t 0 = t.val ∧ win1_0.index t 1 = 0 ∧ win1_1.index t 0 = t.val ∧ win1_1.index t 1 = 0
    ∧ win1_2.index t 0 = t.val ∧ win1_2.index t 1 = 0 ∧ win1_3.index t 0 = 0 ∧ win1_3.index t 1 = 0
    ∧ win1_4.index t 0 = 0 ∧ win1_4.index t 1 = 0 ∧ win1_5.index t 0 = 0
    ∧ win1_6.index t 0 = t.val ∧ win1_6.index t 1 = 0 :=
  (by decide +kernel : ∀ t : Fin grid1.N, _)

/-- Window 0 at point `t` holds rows `2000·t …` of its array. -/
theorem iblk1_0_apply (c : Dev nD) (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v29 : S50000x128.Idx → Elt Ideal .f32) k := by
  have hi := idx1 t
  unfold iblk1
  rw [View.read_apply]
  show V c main_v29 _ = V c main_v29 _
  congr 1
  funext a
  apply Fin.ext
  match a with
  | ⟨0, _⟩ => show win1_0.index t 0 * 2000 + 1 * (x 0).val = (k 0).val; omega
  | ⟨1, _⟩ => show win1_0.index t 1 * 128 + 1 * (x 1).val = (k 1).val; omega

/-- Window 1 at point `t` holds rows `2000·t …` of its array. -/
theorem iblk1_1_apply (c : Dev nD) (t : Fin cfg1.N) (x : S2000x1.Idx) (k : S50000x1.Idx)
    (hk0 : (k 0).val = 2000 * t.val + (x 0).val) (hk1 : (k 1).val = (x 1).val) :
    (iblk1 V c 1 t : Vec Ideal S2000x1 .f32) x = (V c main_v8 : S50000x1.Idx → Elt Ideal .f32) k := by
  have hi := idx1 t
  unfold iblk1
  rw [View.read_apply]
  show V c main_v8 _ = V c main_v8 _
  congr 1
  funext a
  apply Fin.ext
  match a with
  | ⟨0, _⟩ => show win1_1.index t 0 * 2000 + 1 * (x 0).val = (k 0).val; omega
  | ⟨1, _⟩ => show win1_1.index t 1 * 1 + 1 * (x 1).val = (k 1).val; omega

/-- Window 2 at point `t` holds rows `2000·t …` of its array. -/
theorem iblk1_2_apply (c : Dev nD) (t : Fin cfg1.N) (x : S2000x128.Idx) (k : S50000x128.Idx)
    (hk0 : (k 0).val = 2000 * t.val + (x 0).val) (hk1 : (k 1).val = (x 1).val) :
    (iblk1 V c 2 t : Vec Ideal S2000x128 .f32) x = (V c main_v19 : S50000x128.Idx → Elt Ideal .f32) k := by
  have hi := idx1 t
  unfold iblk1
  rw [View.read_apply]
  show V c main_v19 _ = V c main_v19 _
  congr 1
  funext a
  apply Fin.ext
  match a with
  | ⟨0, _⟩ => show win1_2.index t 0 * 2000 + 1 * (x 0).val = (k 0).val; omega
  | ⟨1, _⟩ => show win1_2.index t 1 * 128 + 1 * (x 1).val = (k 1).val; omega

/-- Window 3 holds the whole of its array at every point. -/
theorem iblk1_3_eq (c : Dev nD) (t : Fin cfg1.N) :
    (iblk1 V c 3 t : Vec Ideal S128x128 .f32) = (V c main_arg5 : S128x128.Idx → Elt Ideal .f32) := by
  have hi := idx1 t
  funext x
  unfold iblk1
  rw [View.read_apply]
  show V c main_arg5 _ = V c main_arg5 _
  congr 1
  funext a
  apply Fin.ext
  match a with
  | ⟨0, _⟩ => show win1_3.index t 0 * 128 + 1 * (x 0).val = (x 0).val; omega
  | ⟨1, _⟩ => show win1_3.index t 1 * 128 + 1 * (x 1).val = (x 1).val; omega

/-- Window 4 holds the whole of its array at every point. -/
theorem iblk1_4_eq (c : Dev nD) (t : Fin cfg1.N) :
    (iblk1 V c 4 t : Vec Ideal S128x128 .f32) = (V c main_arg6 : S128x128.Idx → Elt Ideal .f32) := by
  have hi := idx1 t
  funext x
  unfold iblk1
  rw [View.read_apply]
  show V c main_arg6 _ = V c main_arg6 _
  congr 1
  funext a
  apply Fin.ext
  match a with
  | ⟨0, _⟩ => show win1_4.index t 0 * 128 + 1 * (x 0).val = (x 0).val; omega
  | ⟨1, _⟩ => show win1_4.index t 1 * 128 + 1 * (x 1).val = (x 1).val; omega

/-- Window 5 holds the whole of its array at every point. -/
theorem iblk1_5_eq (c : Dev nD) (t : Fin cfg1.N) :
    (iblk1 V c 5 t : Vec Ideal S128 .f32) = (V c main_arg7 : S128.Idx → Elt Ideal .f32) := by
  have hi := idx1 t
  funext x
  unfold iblk1
  rw [View.read_apply]
  show V c main_arg7 _ = V c main_arg7 _
  congr 1
  funext a
  apply Fin.ext
  match a with
  | ⟨0, _⟩ => show win1_5.index t 0 * 128 + 1 * (x 0).val = (x 0).val; omega

/-- One point over variables: if the three row-indexed blocks are rows `2000·t …` of three arrays, the point's result
    at `y` is the layer over all rows of those arrays at the index `i` that `y` is written back to. -/
theorem point1_eq (x0 x2 : FVec Ideal S2000x128 .f32) (x1 : FVec Ideal S2000x1 .f32) (x3 x4 : FVec Ideal S128x128 .f32)
    (x5 : FVec Ideal S128 .f32) (A X : S50000x128.Idx → EReal) (C : S50000x1.Idx → EReal)
    (y : S2000x128.Idx) (i : S50000x128.Idx)
    (h0 : ∀ k : Fin 128, x0 (ix2 (y 0) k) = A (ix2 (i 0) k)) (h1 : x1 (ix2 (y 0) (0 : Fin 1)) = C (ix2 (i 0) (0 : Fin 1)))
    (h2 : ∀ k : Fin 128, x2 (ix2 (y 0) k) = X (ix2 (i 0) k)) (hq : (y 1).val = (i 1).val) :
    out1_6 (F := Ideal) x0 x1 x2 x3 x4 x5 y = layerArr A C X x3 x4 x5 i := by
  unfold out1_6
  rw [View.canon_unit_zero hz2]
  simp only [View.ld_unit_zero (S := S2000x1) hz2, View.ld_unit_zero (S := S2000x128) hz2, View.ld_unit_zero (S := S128x128) hz2,
    View.ld_unit_zero (S := S128) hz1]
  refine (k1_pay1_idx x1 x0 x2 x3 x4 x5 y).trans ?_
  unfold layerArr
  exact layerAt_congr h0 h1 h2 rfl rfl rfl (Fin.ext hq)

/-- What point `t` writes back is block `t` of the layer taken over all 50000 rows of the arrays the stage finds. -/
theorem flushed1 (c : Dev nD) (t : Fin cfg1.N) :
    (dat1 V c).flushed 6 t = ((cfg1.win 6).blk t).view.read (Elt Ideal)
      (layerArr (V c main_v29) (V c main_v8) (V c main_v19) (V c main_arg5) (V c main_arg6) (V c main_arg7)) := by
  have hi := idx1 t
  show (cfg1.win 6).cut (grid1.coords t) ((dat1 V c).after 6 t) = _
  rw [after1_6, iblk1_3_eq V c t, iblk1_4_eq V c t, iblk1_5_eq V c t]
  funext j
  rw [View.read_apply]
  show out1_6 (iblk1 V c 0 t) (iblk1 V c 1 t) (iblk1 V c 2 t) (V c main_arg5) (V c main_arg6) (V c main_arg7) j
    = layerArr (V c main_v29) (V c main_v8) (V c main_v19) (V c main_arg5) (V c main_arg6) (V c main_arg7) (((cfg1.win 6).blk t).view.emb j)
  have hrow : ((((cfg1.win 6).blk t).view.emb j) 0).val = 2000 * t.val + (j 0).val := by
    show win1_6.index t 0 * 2000 + 1 * (j 0).val = 2000 * t.val + (j 0).val; omega
  have hcol : (j 1).val = ((((cfg1.win 6).blk t).view.emb j) 1).val := by
    show (j 1).val = win1_6.index t 1 * 128 + 1 * (j 1).val; omega
  exact point1_eq (iblk1 V c 0 t) (iblk1 V c 2 t) (iblk1 V c 1 t) (V c main_arg5) (V c main_arg6) (V c main_arg7)
    (V c main_v29) (V c main_v19) (V c main_v8) j (((cfg1.win 6).blk t).view.emb j)
    (fun k => iblk1_0_apply V c t (ix2 (j 0) k) (ix2 ((((cfg1.win 6).blk t).view.emb j) 0) k) hrow rfl)
    (iblk1_1_apply V c t (ix2 (j 0) (0 : Fin 1)) (ix2 ((((cfg1.win 6).blk t).view.emb j) 0) (0 : Fin 1)) hrow rfl)
    (fun k => iblk1_2_apply V c t (ix2 (j 0) k) (ix2 ((((cfg1.win 6).blk t).view.emb j) 0) k) hrow rfl)
    hcol

/-- The stage's result array ends holding the layer of the arrays the stage finds: the 25 blocks of 2000 rows tile
    the 50000 rows, row `r` lying in the block of point `r / 2000`. -/
theorem final1 (c : Dev nD) :
    (dat1 V c).arrAt 6 cfg1.N = layerArr (V c main_v29) (V c main_v8) (V c main_v19) (V c main_arg5) (V c main_arg6) (V c main_arg7) :=
  (dat1 V c).arrAt_eq_of_cover 6 _ (fun t _ => flushed1 V c t) fun i => by
    have hr : (i 0 : Nat) < 50000 := (i 0).isLt
    have hc : (i 1 : Nat) < 128 := (i 1).isLt
    have hN : cfg1.N = 25 := N_1
    obtain ⟨tt, htt⟩ : ∃ tt : Fin cfg1.N, tt.val = (i 0 : Nat) / 2000 := ⟨⟨(i 0 : Nat) / 2000, by rw [hN]; omega⟩, rfl⟩
    have hi := idx1 tt
    refine ⟨tt, flush1_6 tt, ?_⟩
    show i ∈ ((View.whole main_v30).slice (win1_6.rect tt)).set
    rw [View.set_slice_whole, Rect.mem_set_unit]
    intro a
    match a with
    | ⟨0, _⟩ =>
      show win1_6.index tt 0 * 2000 ≤ (i 0 : Nat) ∧ (i 0 : Nat) < win1_6.index tt 0 * 2000 + 2000
      have e : win1_6.index tt 0 = tt.val := hi.2.2.2.2.2.2.2.2.2.2.2.1
      omega
    | ⟨1, _⟩ =>
      show win1_6.index tt 1 * 128 ≤ (i 1 : Nat) ∧ (i 1 : Nat) < win1_6.index tt 1 * 128 + 128
      have e : win1_6.index tt 1 = 0 := hi.2.2.2.2.2.2.2.2.2.2.2.2
      omega

/-! ## The classifier -/

/-- The classifier's index maps over the grid: the hidden features and the result move together, block `t` at point
    `t`; the classifier matrix and its bias stay at block zero. -/
theorem idx2 : ∀ t : Fin cfg2.N,
    win2_0.index t 0 = t.val ∧ win2_0.index t 1 = 0 ∧ win2_1.index t 0 = 0 ∧ win2_1.index t 1 = 0
    ∧ win2_2.index t 0 = 0 ∧ win2_3.index t 0 = t.val ∧ win2_3.index t 1 = 0 :=
  (by decide +kernel : ∀ t : Fin grid2.N, _)

/-- Window 0 at point `t` holds rows `2000·t …` of its array. -/
theorem iblk2_0_apply (c : Dev nD) (t : Fin cfg2.N) (x : S2000x128.Idx) (k : S50000x128.Idx)
    (hk0 : (k 0).val = 2000 * t.val + (x 0).val) (hk1 : (k 1).val = (x 1).val) :
    (iblk2 V c 0 t : Vec Ideal S2000x128 .f32) x = (V c main_v30 : S50000x128.Idx → Elt Ideal .f32) k := by
  have hi := idx2 t
  unfold iblk2
  rw [View.read_apply]
  show V c main_v30 _ = V c main_v30 _
  congr 1
  funext a
  apply Fin.ext
  match a with
  | ⟨0, _⟩ => show win2_0.index t 0 * 2000 + 1 * (x 0).val = (k 0).val; omega
  | ⟨1, _⟩ => show win2_0.index t 1 * 128 + 1 * (x 1).val = (k 1).val; omega

/-- Window 1 holds the whole of its array at every point. -/
theorem iblk2_1_eq (c : Dev nD) (t : Fin cfg2.N) :
    (iblk2 V c 1 t : Vec Ideal S128x2 .f32) = (V c main_arg8 : S128x2.Idx → Elt Ideal .f32) := by
  have hi := idx2 t
  funext x
  unfold iblk2
  rw [View.read_apply]
  show V c main_arg8 _ = V c main_arg8 _
  congr 1
  funext a
  apply Fin.ext
  match a with
  | ⟨0, _⟩ => show win2_1.index t 0 * 128 + 1 * (x 0).val = (x 0).val; omega
  | ⟨1, _⟩ => show win2_1.index t 1 * 2 + 1 * (x 1).val = (x 1).val; omega

/-- Window 2 holds the whole of its array at every point. -/
theorem iblk2_2_eq (c : Dev nD) (t : Fin cfg2.N) :
    (iblk2 V c 2 t : Vec Ideal S2 .f32) = (V c main_arg9 : S2.Idx → Elt Ideal .f32) := by
  have hi := idx2 t
  funext x
  unfold iblk2
  rw [View.read_apply]
  show V c main_arg9 _ = V c main_arg9 _
  congr 1
  funext a
  apply Fin.ext
  match a with
  | ⟨0, _⟩ => show win2_2.index t 0 * 2 + 1 * (x 0).val = (x 0).val; omega

/-- One point of the classifier over variables: if the block of hidden features is rows `2000·t …` of an array, the
    point's result at `y` is the classifier over all rows of that array at the index `y` is written back to. -/
theorem point2_eq (x0 : FVec Ideal S2000x128 .f32) (x1 : FVec Ideal S128x2 .f32) (x2 : FVec Ideal S2 .f32)
    (H : S50000x128.Idx → EReal) (y : S2000x2.Idx) (i : S50000x2.Idx)
    (h0 : ∀ k : Fin 128, x0 (ix2 (y 0) k) = H (ix2 (i 0) k)) (hq : (y 1).val = (i 1).val) :
    out2_3 (F := Ideal) x0 x1 x2 y = clsArr H x1 x2 i := by
  unfold out2_3
  rw [View.canon_unit_zero hz2]
  simp only [View.ld_unit_zero (S := S2000x128) hz2, View.ld_unit_zero (S := S128x2) hz2, View.ld_unit_zero (S := S2) hz1]
  refine (k2_pay1_idx x0 x1 x2 y).trans ?_
  unfold clsArr
  exact logSoftmaxAt_congr (fun c => logitAt_congr h0 rfl rfl) (Fin.ext hq)

/-- What point `t` writes back is block `t` of the classifier taken over all 50000 rows of the hidden features. -/
theorem flushed2 (c : Dev nD) (t : Fin cfg2.N) :
    (dat2 V c).flushed 3 t = ((cfg2.win 3).blk t).view.read (Elt Ideal)
      (clsArr (V c main_v30) (V c main_arg8) (V c main_arg9)) := by
  have hi := idx2 t
  show (cfg2.win 3).cut (grid2.coords t) ((dat2 V c).after 3 t) = _
  rw [after2_3, iblk2_1_eq V c t, iblk2_2_eq V c t]
  funext j
  rw [View.read_apply]
  show out2_3 (iblk2 V c 0 t) (V c main_arg8) (V c main_arg9) j
    = clsArr (V c main_v30) (V c main_arg8) (V c main_arg9) (((cfg2.win 3).blk t).view.emb j)
  have hrow : ((((cfg2.win 3).blk t).view.emb j) 0).val = 2000 * t.val + (j 0).val := by
    show win2_3.index t 0 * 2000 + 1 * (j 0).val = 2000 * t.val + (j 0).val; omega
  have hcol : (j 1).val = ((((cfg2.win 3).blk t).view.emb j) 1).val := by
    show (j 1).val = win2_3.index t 1 * 2 + 1 * (j 1).val; omega
  exact point2_eq (iblk2 V c 0 t) (V c main_arg8) (V c main_arg9) (V c main_v30) j (((cfg2.win 3).blk t).view.emb j)
    (fun k => iblk2_0_apply V c t (ix2 (j 0) k) (ix2 ((((cfg2.win 3).blk t).view.emb j) 0) k) hrow rfl)
    hcol

/-- The classifier's result array ends holding the classifier of the hidden features it finds: the 25 blocks of 2000
    rows tile the 50000 rows. -/
theorem final2 (c : Dev nD) :
    (dat2 V c).arrAt 3 cfg2.N = clsArr (V c main_v30) (V c main_arg8) (V c main_arg9) :=
  (dat2 V c).arrAt_eq_of_cover 3 _ (fun t _ => flushed2 V c t) fun i => by
    have hr : (i 0 : Nat) < 50000 := (i 0).isLt
    have hc : (i 1 : Nat) < 2 := (i 1).isLt
    have hN : cfg2.N = 25 := N_2
    obtain ⟨tt, htt⟩ : ∃ tt : Fin cfg2.N, tt.val = (i 0 : Nat) / 2000 := ⟨⟨(i 0 : Nat) / 2000, by rw [hN]; omega⟩, rfl⟩
    have hi := idx2 tt
    refine ⟨tt, flush2_3 tt, ?_⟩
    show i ∈ ((View.whole main_v31).slice (win2_3.rect tt)).set
    rw [View.set_slice_whole, Rect.mem_set_unit]
    intro a
    match a with
    | ⟨0, _⟩ =>
      show win2_3.index tt 0 * 2000 ≤ (i 0 : Nat) ∧ (i 0 : Nat) < win2_3.index tt 0 * 2000 + 2000
      have e : win2_3.index tt 0 = tt.val := hi.2.2.2.2.2.1
      omega
    | ⟨1, _⟩ =>
      show win2_3.index tt 1 * 2 ≤ (i 1 : Nat) ∧ (i 1 : Nat) < win2_3.index tt 1 * 2 + 2
      have e : win2_3.index tt 1 = 0 := hi.2.2.2.2.2.2
      omega

end Cert.KernelIdeal.Blocks

end
-- ==== Proof.HostChain.lean ====
/-
  The sparse part of the network, which both programs run as the same host operations: from the edge list, the
  source and destination node of every edge; the sum, into every destination node, of the feature rows of its
  in-neighbours; and the number of in-neighbours of every node, kept as a column.

  A negative source index is read from the end (`s + 50000` when `s < 0`) before the rows are gathered; the sums are
  scatter-additions into zero arrays, and the counts are the scatter-addition of ones. They are named here so that
  a value claim can state both programs over the same terms and never open a gather or a scatter.
-/
import proofs.«174961_j57131654972028_1_alg».proof.KernelIdeal
import proofs.«174961_j57131654972028_1_alg».proof.Proof.Gen.KernelIdeal
import proofs.«174961_j57131654972028_1_alg».proof.Proof.Spec
import Idealize.ShloMosaic.PureOps.Ideal

noncomputable section

namespace Cert.KernelIdeal.Chain

open Cert.KernelIdeal Cert.KernelIdeal.Gen Cert.Dense Idealize.ShloMosaic Idealize.ShloMosaic.TcCoe

/-- The source node of every edge: row 0 of the edge list. -/
def srcOf (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The destination node of every edge: row 1 of the edge list. -/
def dstOf (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- For every destination node, the sum of the feature rows `h s` over its incoming edges `s → d`. -/
def aggOf (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- For every node, the number of its incoming edges, as a vector. -/
def cntOf (dst : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The same counts as a column. -/
def cntCol (dst : (⟨S800000, .i32⟩ : BufTy).Contents (Elt Ideal)) : (⟨S50000x1, .f32⟩ : BufTy).Contents (Elt Ideal) :=
  broadcastInDim S50000x1 ![0] bcast_S50000_S50000x1_0 (cntOf dst)

/-! ## The network over whole arrays -/

/-- The first layer's result. -/
def hidden1 (x : (⟨S50000x128, .f32⟩ : BufTy).Contents (Elt Ideal)) (ei : (⟨S2x800000, .i32⟩ : BufTy).Contents (Elt Ideal))
    (w1l w1r : (⟨S128x128, .f32⟩ : BufTy).Contents (Elt Ideal)) (b1 : (⟨S128, .f32⟩ : BufTy).Contents (Elt Ideal)) : (⟨S50000x128, .f32⟩ : BufTy).Contents (Elt Ideal) :=
  layerArr (aggOf x (srcOf ei) (dstOf ei)) (cntCol (dstOf ei)) x w1l w1r b1

/-- The second layer's result: the same layer of the first one's. -/
def hidden2 (h1 : (⟨S50000x128, .f32⟩ : BufTy).Contents (Elt Ideal)) (ei : (⟨S2x800000, .i32⟩ : BufTy).Contents (Elt Ideal))
    (w2l w2r : (⟨S128x128, .f32⟩ : BufTy).Contents (Elt Ideal)) (b2 : (⟨S128, .f32⟩ : BufTy).Contents (Elt Ideal)) : (⟨S50000x128, .f32⟩ : BufTy).Contents (Elt Ideal) :=
  layerArr (aggOf h1 (srcOf ei) (dstOf ei)) (cntCol (dstOf ei)) h1 w2l w2r b2

/-- The network's result: the classifier of the second layer of the first. -/
def network (x : (⟨S50000x128, .f32⟩ : BufTy).Contents (Elt Ideal)) (ei : (⟨S2x800000, .i32⟩ : BufTy).Contents (Elt Ideal))
    (w1l w1r : (⟨S128x128, .f32⟩ : BufTy).Contents (Elt Ideal)) (b1 : (⟨S128, .f32⟩ : BufTy).Contents (Elt Ideal)) (w2l w2r : (⟨S128x128, .f32⟩ : BufTy).Contents (Elt Ideal)) (b2 : (⟨S128, .f32⟩ : BufTy).Contents (Elt Ideal))
    (wc : (⟨S128x2, .f32⟩ : BufTy).Contents (Elt Ideal)) (bc : (⟨S2, .f32⟩ : BufTy).Contents (Elt Ideal)) : (⟨S50000x2, .f32⟩ : BufTy).Contents (Elt Ideal) :=
  clsArr (hidden2 (hidden1 x ei w1l w1r b1) ei w2l w2r b2) wc bc

end Cert.KernelIdeal.Chain

end
-- ==== Proof.KValue.lean ====
/-
  The tiled program's result as one function of its arguments.

  Its run passes through five boundaries: after the first stretch of host operations (the edges sliced, the
  neighbour counts and the first aggregation computed), after the first graph layer, after the second stretch (the
  second aggregation, of the first layer's result), after the second layer, and after the classifier. At each
  boundary every buffer either holds what the stretch or the stage just wrote, or what it held before. Read back
  from the last boundary to the launch, the result array is
      classifier (layer₂ (agg (layer₁ …), counts, layer₁ …)),   layer₁ = layer (agg x, counts, x),
  with the aggregation and the counts the shared host chain of the edge list.
-/
import proofs.«174961_j57131654972028_1_alg».proof.Proof.KBlocks
import proofs.«174961_j57131654972028_1_alg».proof.Proof.KernelRunP
import proofs.«174961_j57131654972028_1_alg».proof.Proof.HostChain
import Idealize.ShloMosaic.Lib.StableHlo.Run

set_option maxRecDepth 16384

noncomputable section

namespace Cert.KernelIdeal.Whole

open Cert.KernelIdeal Cert.KernelIdeal.Gen Cert.KernelIdeal.Chain Cert.KernelIdeal.Blocks Cert.Dense
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first stretch of host operations -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl

theorem W1_v1 (c : Dev nD) : W1 m ρ c (Proc.devRef .tc main_v1) = srcOf (m ((c : Thread nD τ).loc main_arg1)) := by
  show StableHlo.after hostOps0 (W0 m ρ c) (Proc.devRef .tc main_v1) = _
  after_results <;> rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results <;> rfl
theorem W1_v8 (c : Dev nD) : W1 m ρ c (Proc.devRef .tc main_v8) = cntCol (dstOf (m ((c : Thread nD τ).loc main_arg1))) := by
  show StableHlo.after hostOps0 (W0 m ρ c) (Proc.devRef .tc main_v8) = _
  after_results <;> rfl
theorem W1_v18 (c : Dev nD) : W1 m ρ c (Proc.devRef .tc main_v18)
    = aggOf (m ((c : Thread nD τ).loc main_arg0)) (srcOf (m ((c : Thread nD τ).loc main_arg1))) (dstOf (m ((c : Thread nD τ).loc main_arg1))) := by
  show StableHlo.after hostOps0 (W0 m ρ c) (Proc.devRef .tc main_v18) = _
  after_results_simp
  unfold aggOf srcOf dstOf
  rfl

/-! ## After the first layer -/

theorem W2_v19 (c : Dev nD) : W2 m ρ c (Proc.devRef .tc main_v19) = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ?_
  rw [final0 (V1 m ρ) c]
  show layerArr (W1 m ρ c (Proc.devRef .tc main_v18)) (W1 m ρ c (Proc.devRef .tc main_v8)) (W1 m ρ c (Proc.devRef .tc main_arg0))
    (W1 m ρ c (Proc.devRef .tc main_arg2)) (W1 m ρ c (Proc.devRef .tc main_arg3)) (W1 m ρ c (Proc.devRef .tc main_arg4)) = _
  rw [W1_v18, W1_v8, W1_arg0, W1_arg2, W1_arg3, W1_arg4]
  rfl

theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_v8 (c : Dev nD) : W2 m ρ c (Proc.devRef .tc main_v8) = cntCol (dstOf (m ((c : Thread nD τ).loc main_arg1))) :=
  ((W2_arr m ρ c 1).trans (((dat0 (V1 m ρ) c).arrAt_in 1 rfl _).trans (A_eq0 (V1 m ρ) c 1))).trans (W1_v8 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

/-! ## After the second stretch of host operations -/

theorem W3_v29 (c : Dev nD) : W3 m ρ c (Proc.devRef .tc main_v29)
    = aggOf (W2 m ρ c (Proc.devRef .tc main_v19)) (W2 m ρ c (Proc.devRef .tc main_v1)) (W2 m ρ c (Proc.devRef .tc main_v3)) := by
  show StableHlo.after hostOps1 (W2 m ρ c) (Proc.devRef .tc main_v29) = _
  after_results_simp <;> rfl
theorem W3_v8 (c : Dev nD) : W3 m ρ c (Proc.devRef .tc main_v8) = W2 m ρ c (Proc.devRef .tc main_v8) := by
  show StableHlo.after hostOps1 (W2 m ρ c) (Proc.devRef .tc main_v8) = _
  after_results <;> rfl
theorem W3_v19 (c : Dev nD) : W3 m ρ c (Proc.devRef .tc main_v19) = W2 m ρ c (Proc.devRef .tc main_v19) := by
  show StableHlo.after hostOps1 (W2 m ρ c) (Proc.devRef .tc main_v19) = _
  after_results <;> rfl
theorem W3_arg5 (c : Dev nD) : W3 m ρ c (Proc.devRef .tc main_arg5) = W2 m ρ c (Proc.devRef .tc main_arg5) := by
  show StableHlo.after hostOps1 (W2 m ρ c) (Proc.devRef .tc main_arg5) = _
  after_results <;> rfl
theorem W3_arg6 (c : Dev nD) : W3 m ρ c (Proc.devRef .tc main_arg6) = W2 m ρ c (Proc.devRef .tc main_arg6) := by
  show StableHlo.after hostOps1 (W2 m ρ c) (Proc.devRef .tc main_arg6) = _
  after_results <;> rfl
theorem W3_arg7 (c : Dev nD) : W3 m ρ c (Proc.devRef .tc main_arg7) = W2 m ρ c (Proc.devRef .tc main_arg7) := by
  show StableHlo.after hostOps1 (W2 m ρ c) (Proc.devRef .tc main_arg7) = _
  after_results <;> rfl
theorem W3_arg8 (c : Dev nD) : W3 m ρ c (Proc.devRef .tc main_arg8) = W2 m ρ c (Proc.devRef .tc main_arg8) := by
  show StableHlo.after hostOps1 (W2 m ρ c) (Proc.devRef .tc main_arg8) = _
  after_results <;> rfl
theorem W3_arg9 (c : Dev nD) : W3 m ρ c (Proc.devRef .tc main_arg9) = W2 m ρ c (Proc.devRef .tc main_arg9) := by
  show StableHlo.after hostOps1 (W2 m ρ c) (Proc.devRef .tc main_arg9) = _
  after_results <;> rfl

/-! ## After the second layer -/

theorem W4_v30 (c : Dev nD) : W4 m ρ c (Proc.devRef .tc main_v30) = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W4_arr m ρ c 6).trans ?_
  rw [final1 (V3 m ρ) c]
  show layerArr (W3 m ρ c (Proc.devRef .tc main_v29)) (W3 m ρ c (Proc.devRef .tc main_v8)) (W3 m ρ c (Proc.devRef .tc main_v19))
    (W3 m ρ c (Proc.devRef .tc main_arg5)) (W3 m ρ c (Proc.devRef .tc main_arg6)) (W3 m ρ c (Proc.devRef .tc main_arg7)) = _
  rw [W3_v29, W3_v8, W3_v19, W3_arg5, W3_arg6, W3_arg7, W2_v19, W2_v1, W2_v3, W2_v8, W2_arg5, W2_arg6, W2_arg7]
  rfl

theorem W4_arg8 (c : Dev nD) : W4 m ρ c (Proc.devRef .tc main_arg8) = m ((c : Thread nD τ).loc main_arg8) :=
  (W4_of_ne m ρ c main_arg8 (by decide)).trans ((W3_arg8 m ρ c).trans (W2_arg8 m ρ c))
theorem W4_arg9 (c : Dev nD) : W4 m ρ c (Proc.devRef .tc main_arg9) = m ((c : Thread nD τ).loc main_arg9) :=
  (W4_of_ne m ρ c main_arg9 (by decide)).trans ((W3_arg9 m ρ c).trans (W2_arg9 m ρ c))

/-! ## After the classifier -/

theorem W5_v31 (c : Dev nD) : W5 m ρ c (Proc.devRef .tc main_v31)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 3).trans ?_
  rw [final2 (V4 m ρ) c]
  show clsArr (W4 m ρ c (Proc.devRef .tc main_v30)) (W4 m ρ c (Proc.devRef .tc main_arg8)) (W4 m ρ c (Proc.devRef .tc main_arg9)) = _
  rw [W4_v30, W4_arg8, W4_arg9]
  rfl

/-! ## The run -/

/-- Every weakly fair execution of the tiled program ends with its result array at the network of its arguments,
    and the arguments as launched. -/
theorem run : θ_run (defs (F := Ideal)) (onTc (τ := τ) (main (F := Ideal))) ⟨m, fun _ => 0, ρ⟩ (fun r => ∀ c : Dev nD,
      r.2.mem ((c.tc : Thread nD τ).loc main_v31)
        = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Cert.KernelIdeal.GenP.run_of_final m ρ fun s h c =>
    ⟨(h c _ (mem_uc main_v31 (by decide))).trans (W5_v31 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩

end Cert.KernelIdeal.Whole

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.RefDense.lean ====
/-
  The plain program's two dense stages as whole-array terms, and what each is entry by entry.

  The graph layer is written over whole arrays: the neighbour counts, a vector, are clamped below at one, written as
  a column and repeated along the 128 columns; the aggregated features are divided by that, multiplied by `Wl`; the
  node features are multiplied by `Wr`; the bias, a vector, is written as a one-row matrix and repeated down the rows;
  the three are added in that order and clamped below at zero. Entry `(p, q)` of that term is the layer's entry
  `Cert.Dense.layerAt` with the counts read as a column. The classifier is the product with `Wc` plus the bias row,
  then the row-wise log-softmax through the row maximum (a fold of `max` from −∞, once more compared with −∞) and the
  row sum of the exponentials (zero plus the sum); entry `(p, j)` is `Cert.Dense.logSoftmaxAt` of the logits.
-/
import proofs.«174961_j57131654972028_1_alg».proof.ReferenceIdeal
import proofs.«174961_j57131654972028_1_alg».proof.Proof.Gen.ReferenceIdeal
import proofs.«174961_j57131654972028_1_alg».proof.Proof.Spec
import proofs.«174961_j57131654972028_1_alg».proof.Proof.LibBroadcastInDim
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Stages

open Cert.ReferenceIdeal Cert.ReferenceIdeal.Gen Cert.Dense
open Idealize.ShloMosaic Idealize.ShloMosaic.TcCoe Idealize.ShloMosaic.ValueIdx

/-! ## The host's matrix products at an index -/

theorem dA_l0 (i : S50000x128.Idx) (c : dot_S50000x128_S128x128_S50000x128_1_0_0_1_n_n.contr.Idx) : (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dA_l1 (i : S50000x128.Idx) (c : dot_S50000x128_S128x128_S50000x128_1_0_0_1_n_n.contr.Idx) : (dot_S50000x128_S128x128_S50000x128_1_0_0_1_n_n.lhsIdx i c 1).val = (c ⟨0, by decide⟩).val :=
  dot_S50000x128_S128x128_S50000x128_1_0_0_1_n_n.lhsIdx_val_of_single rfl i c
theorem dA_r0 (i : S50000x128.Idx) (c : dot_S50000x128_S128x128_S50000x128_1_0_0_1_n_n.contr.Idx) : (dot_S50000x128_S128x128_S50000x128_1_0_0_1_n_n.rhsIdx i c 0).val = (c ⟨0, by decide⟩).val :=
  dot_S50000x128_S128x128_S50000x128_1_0_0_1_n_n.rhsIdx_val_of_single rfl i c
theorem dA_r1 (i : S50000x128.Idx) (c : dot_S50000x128_S128x128_S50000x128_1_0_0_1_n_n.contr.Idx) : (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The 50000×128 features times a 128×128 matrix at `(p, q)`: the sum over the contracted coordinate. -/
theorem dot128_at (l : FVec Ideal S50000x128 .f32) (r : FVec Ideal S128x128 .f32) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k :=
    funext fun a => Fin.ext (by
      match a with
      | ⟨0, _⟩ => exact dA_l0 _ _
      | ⟨1, _⟩ => exact (dA_l1 _ _).trans hk)
  have er : dot_S50000x128_S128x128_S50000x128_1_0_0_1_n_n.rhsIdx (ix2 p q) ((contrEquiv1 dot_S50000x128_S128x128_S50000x128_1_0_0_1_n_n 128 rfl rfl).symm k) = ix2 k q :=
    funext fun a => Fin.ext (by
      match a with
      | ⟨0, _⟩ => exact (dA_r0 _ _).trans hk
      | ⟨1, _⟩ => exact dA_r1 _ _)
  rw [el, er]

theorem dB_l0 (i : S50000x2.Idx) (c : dot_S50000x128_S128x2_S50000x2_1_0_0_1_n_n.contr.Idx) : (dot_S50000x128_S128x2_S50000x2_1_0_0_1_n_n.lhsIdx i c 0).val = (i 0).val := by
  unfold DotDims.lhsIdx
  rw [dif_neg (show ¬(0 : Fin S50000x128.rank) ∈ dot_S50000x128_S128x2_S50000x2_1_0_0_1_n_n.lhsBatch by decide), dif_pos (show (0 : Fin S50000x128.rank) ∈ dot_S50000x128_S128x2_S50000x2_1_0_0_1_n_n.lhsNonContracting by decide)]
  rfl
theorem dB_l1 (i : S50000x2.Idx) (c : dot_S50000x128_S128x2_S50000x2_1_0_0_1_n_n.contr.Idx) : (dot_S50000x128_S128x2_S50000x2_1_0_0_1_n_n.lhsIdx i c 1).val = (c ⟨0, by decide⟩).val :=
  dot_S50000x128_S128x2_S50000x2_1_0_0_1_n_n.lhsIdx_val_of_single rfl i c
theorem dB_r0 (i : S50000x2.Idx) (c : dot_S50000x128_S128x2_S50000x2_1_0_0_1_n_n.contr.Idx) : (dot_S50000x128_S128x2_S50000x2_1_0_0_1_n_n.rhsIdx i c 0).val = (c ⟨0, by decide⟩).val :=
  dot_S50000x128_S128x2_S50000x2_1_0_0_1_n_n.rhsIdx_val_of_single rfl i c
theorem dB_r1 (i : S50000x2.Idx) (c : dot_S50000x128_S128x2_S50000x2_1_0_0_1_n_n.contr.Idx) : (dot_S50000x128_S128x2_S50000x2_1_0_0_1_n_n.rhsIdx i c 1).val = (i 1).val := by
  unfold DotDims.rhsIdx
  rw [dif_neg (show ¬(1 : Fin S128x2.rank) ∈ dot_S50000x128_S128x2_S50000x2_1_0_0_1_n_n.rhsBatch by decide), dif_pos (show (1 : Fin S128x2.rank) ∈ dot_S50000x128_S128x2_S50000x2_1_0_0_1_n_n.rhsNonContracting by decide)]
  rfl

/-- The 50000×128 hidden features times the 128×2 classifier matrix at `(p, q)`: the same sum. -/
theorem dot2_at (l : FVec Ideal S50000x128 .f32) (r : FVec Ideal S128x2 .f32) (p : Fin 50000) (q : Fin 2) :
    Host.dotGeneral dot_S50000x128_S128x2_S50000x2_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x2_S50000x2_1_0_0_1_n_n 128 rfl rfl).symm]
  refine Finset.sum_congr rfl fun k _ => ?_
  have hk := contrEquiv1_symm_val dot_S50000x128_S128x2_S50000x2_1_0_0_1_n_n 128 rfl rfl k
  have el : dot_S50000x128_S128x2_S50000x2_1_0_0_1_n_n.lhsIdx (ix2 p q) ((contrEquiv1 dot_S50000x128_S128x2_S50000x2_1_0_0_1_n_n 128 rfl rfl).symm k) = ix2 p k :=
    funext fun a => Fin.ext (by
      match a with
      | ⟨0, _⟩ => exact dB_l0 _ _
      | ⟨1, _⟩ => exact (dB_l1 _ _).trans hk)
  have er : dot_S50000x128_S128x2_S50000x2_1_0_0_1_n_n.rhsIdx (ix2 p q) ((contrEquiv1 dot_S50000x128_S128x2_S50000x2_1_0_0_1_n_n 128 rfl rfl).symm k) = ix2 k q :=
    funext fun a => Fin.ext (by
      match a with
      | ⟨0, _⟩ => exact (dB_r0 _ _).trans hk
      | ⟨1, _⟩ => exact dB_r1 _ _)
  rw [el, er]

/-! ## The graph layer -/

/-- The layer as the plain program writes it, over whole arrays; the counts a vector. -/
def layerTerm (agg : FVec Ideal S50000x128 .f32) (cnt : FVec Ideal S50000 .f32) (x : FVec Ideal S50000x128 .f32)
    (wl wr : FVec Ideal S128x128 .f32) (b : FVec Ideal S128 .f32) : FVec Ideal S50000x128 .f32 :=
  maximumf
    (addf
      (addf
        (Host.dotGeneral dot_S50000x128_S128x128_S50000x128_1_0_0_1_n_n none
          (Host.divf agg
            (broadcastInDim S50000x128 ![0, 1] bcast_S50000x1_S50000x128_0_1
              (broadcastInDim S50000x1 ![0] bcast_S50000_S50000x1_0
                (maximumf cnt (broadcastInDim S50000 ![] bcast_S_S50000 (constant (F := Ideal) S_ .f32 0x3F800000#32))))))
          wl)
        (Host.dotGeneral dot_S50000x128_S128x128_S50000x128_1_0_0_1_n_n none x wr))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- Entry by entry it is the layer with the counts read as a column. -/
theorem layerTerm_eq (agg : FVec Ideal S50000x128 .f32) (cnt : FVec Ideal S50000 .f32) (x : FVec Ideal S50000x128 .f32)
    (wl wr : FVec Ideal S128x128 .f32) (b : FVec Ideal S128 .f32) :
    layerTerm agg cnt x wl wr b = layerArr agg (broadcastInDim S50000x1 ![0] bcast_S50000_S50000x1_0 cnt) x wl wr b := by
  funext i
  obtain ⟨p, q, rfl⟩ : ∃ (p : Fin 50000) (q : Fin 128), i = ix2 p q := ⟨i 0, i 1, eq_ix2 i⟩
  rw [layerArr_ix2]
  unfold layerTerm layerAt
  simp only [maximumf_apply, addf_apply]
  rw [dot128_at, dot128_at, broadcastInDim_1b_ab_apply, broadcastInDim_b_1b_apply, broadcastInDim_scalar_apply]
  simp only [hostDivf_apply, broadcastInDim_a1_ab_apply, broadcastInDim_a_a1_apply, maximumf_apply, broadcastInDim_scalar_apply]
  rfl

/-! ## The classifier -/

/-- The reduced axis of a 50000×2 array, with a coordinate inserted, is the entry `(p, k)`. -/
theorem hRed : S50000x2.Reduces [1] S50000 := by decide

theorem lift_row (p : Fin 50000) (k : Fin (S50000x2.size 1)) : hRed.lift (ix1 p) k = ix2 p (⟨k.val, k.isLt⟩ : Fin 2) := by
  funext c; apply Fin.ext
  fin_cases c <;> rfl

theorem hostExp_at {s : Shape} (a : FVec Ideal s .f32) (i : s.Idx) : Host.exp a i = Ideal.exp (a i) := rfl
theorem hostLog_at {s : Shape} (a : FVec Ideal s .f32) (i : s.Idx) : Host.log a i = Ideal.log (a i) := rfl

/-- −∞ is the least extended real: comparing with it changes nothing. -/
theorem max_negInf (y : EReal) : max negInf32 y = y := by
  show max (Ideal.ofBits .f32 0xFF800000#32) y = y
  simp [Ideal.ofBits, Ideal.ieee]

/-- The row maxima as the plain program takes them: the reduce from −∞, compared once more with −∞. -/
def rowMaxTerm (z : FVec Ideal S50000x2 .f32) : FVec Ideal S50000 .f32 :=
  maximumf (broadcastInDim S50000 ![] bcast_S_S50000 (constant (F := Ideal) S_ .f32 0xFF800000#32))
    (Host.reduce FloatOps.maximumf z (constant (F := Ideal) S_ .f32 0xFF800000#32) reducesTo_S50000x2_S50000_d1 h_S_)

theorem rowMaxTerm_at (z : FVec Ideal S50000x2 .f32) (p : Fin 50000) :
    rowMaxTerm z (ix1 p) = rowMax (fun a c => z (ix2 a c)) p := by
  unfold rowMaxTerm rowMax
  rw [maximumf_apply, broadcastInDim_scalar_apply]
  refine (max_negInf _).trans ?_
  refine (Host.reduce_eq_fold_single FloatOps.maximumf z _ reducesTo_S50000x2_S50000_d1 hRed h_S_ (ix1 p)).trans ?_
  show (Finset.univ : Finset (Fin 2)).fold max (Ideal.ofBits .f32 0xFF800000#32) (z ∘ hRed.lift (ix1 p)) = _
  congr 1
  funext k
  exact congrArg z (lift_row p k)

/-- The logits shifted by their row maxima. -/
def shiftedTerm (z : FVec Ideal S50000x2 .f32) : FVec Ideal S50000x2 .f32 :=
  subf z (broadcastInDim S50000x2 ![0, 1] bcast_S50000x1_S50000x2_0_1
    (broadcastInDim S50000x1 ![0] bcast_S50000_S50000x1_0 (rowMaxTerm z)))

theorem shiftedTerm_at (z : FVec Ideal S50000x2 .f32) (p : Fin 50000) (j : Fin 2) :
    shiftedTerm z (ix2 p j) = z (ix2 p j) - rowMax (fun a c => z (ix2 a c)) p := by
  unfold shiftedTerm
  rw [subf_apply, broadcastInDim_a1_ab_apply, broadcastInDim_a_a1_apply, rowMaxTerm_at]

/-- The row-wise log-softmax as the plain program writes it. -/
def lsmTerm (z : FVec Ideal S50000x2 .f32) : FVec Ideal S50000x2 .f32 :=
  subf (shiftedTerm z) (broadcastInDim S50000x2 ![0, 1] bcast_S50000x1_S50000x2_0_1
    (Host.log (broadcastInDim S50000x1 ![0] bcast_S50000_S50000x1_0
      (Host.reduceAdd (Host.exp (shiftedTerm z)) (constant (F := Ideal) S_ .f32 0x00000000#32) reducesTo_S50000x2_S50000_d1 h_S_))))

theorem lsmTerm_at (z : FVec Ideal S50000x2 .f32) (p : Fin 50000) (j : Fin 2) :
    lsmTerm z (ix2 p j) = logSoftmaxAt (fun a c => z (ix2 a c)) p j := by
  unfold lsmTerm logSoftmaxAt
  rw [subf_apply, broadcastInDim_a1_ab_apply, hostLog_at, broadcastInDim_a_a1_apply, shiftedTerm_at, hostReduceAdd_apply]
  refine congrArg (fun t => (z (ix2 p j) - rowMax (fun a c => z (ix2 a c)) p) - Ideal.log t) ?_
  refine (Ideal.hostReduceAdd_single reducesTo_S50000x2_S50000_d1 hRed _ _ (ix1 p)).trans ?_
  show Ideal.ofBits .f32 0x00000000#32 + ∑ k : Fin 2, Host.exp (shiftedTerm z) (hRed.lift (ix1 p) k) = _
  rw [Ideal.ofBits_zero_f32, zero_add]
  refine Finset.sum_congr rfl fun k _ => ?_
  refine (hostExp_at _ _).trans ?_
  refine (congrArg (fun i => Ideal.exp (shiftedTerm z i)) (lift_row p k)).trans ?_
  rw [shiftedTerm_at]

/-- The classifier as the plain program writes it, over whole arrays. -/
def clsTerm (h : FVec Ideal S50000x128 .f32) (wc : FVec Ideal S128x2 .f32) (bc : FVec Ideal S2 .f32) : FVec Ideal S50000x2 .f32 :=
  lsmTerm (addf (Host.dotGeneral dot_S50000x128_S128x2_S50000x2_1_0_0_1_n_n none h wc)
    (broadcastInDim S50000x2 ![0, 1] bcast_S1x2_S50000x2_0_1 (broadcastInDim S1x2 ![1] bcast_S2_S1x2_1 bc)))

/-- Entry by entry it is the classifier. -/
theorem clsTerm_eq (h : FVec Ideal S50000x128 .f32) (wc : FVec Ideal S128x2 .f32) (bc : FVec Ideal S2 .f32) :
    clsTerm h wc bc = clsArr h wc bc := by
  funext i
  obtain ⟨p, j, rfl⟩ : ∃ (p : Fin 50000) (j : Fin 2), i = ix2 p j := ⟨i 0, i 1, eq_ix2 i⟩
  rw [clsArr_ix2]
  unfold clsTerm
  refine (lsmTerm_at _ p j).trans ?_
  congr 1
  funext a c
  rw [addf_apply, dot2_at, broadcastInDim_1b_ab_apply, broadcastInDim_b_1b_apply]
  rfl

end Cert.ReferenceIdeal.Stages

end
-- ==== Proof.RefSplit.lean ====
/-
  The plain program's 91 host operations cut into three stretches: up to the first layer's result (operation 38),
  from there to the second layer's (operation 72), and the classifier. Running the whole list is running the three
  stretches one after the other.
-/
import proofs.«174961_j57131654972028_1_alg».proof.Proof.RefRunP
import proofs.«174961_j57131654972028_1_alg».proof.Proof.RefDense
import proofs.«174961_j57131654972028_1_alg».proof.Proof.HostChain
import Idealize.ShloMosaic.PureOps.Ideal

set_option maxRecDepth 16384

noncomputable section

namespace Cert.ReferenceIdeal.Whole

open Cert.ReferenceIdeal Cert.ReferenceIdeal.Gen Cert.ReferenceIdeal.ValueP Cert.ReferenceIdeal.Stages Cert.Dense
open Idealize.ShloMosaic Idealize.ShloMosaic.TcCoe Idealize.SL.Sem Idealize.ShloMosaic.StableHlo
open Cert.KernelIdeal.Chain (aggOf srcOf dstOf cntOf cntCol hidden1 hidden2 network)

/-- Running a list of host operations and then another is running their concatenation. -/
theorem after_append (l1 l2 : List (HloOp τ sig (Elt Ideal))) (V : Valuation τ sig (Elt Ideal)) :
    after (l1 ++ l2) V = after l2 (after l1 V) := by
  induction l1 generalizing V with
  | nil => rfl
  | cons op l ih => simp only [List.cons_append, after_cons, ih]

/-- The three stretches of @main's operations. -/
abbrev opsA : List (HloOp τ sig (Elt Ideal)) := (ops (F := Ideal)).take 38
abbrev opsB : List (HloOp τ sig (Elt Ideal)) := ((ops (F := Ideal)).drop 38).take 34
abbrev opsC : List (HloOp τ sig (Elt Ideal)) := (ops (F := Ideal)).drop 72

theorem ops_split : (ops (F := Ideal)) = opsA ++ (opsB ++ opsC) := by
  simp only [opsA, opsB, opsC, ops, List.take_succ_cons, List.take_zero, List.drop_succ_cons, List.drop_zero, List.cons_append, List.nil_append]

theorem after_ops (L : Valuation τ sig (Elt Ideal)) :
    after (ops (F := Ideal)) L = after opsC (after opsB (after opsA L)) := by
  conv_lhs => rw [ops_split]
  rw [after_append, after_append]

/-! ## The called functions' casts

An operation of a called function moves its operands and its result between the buffer's own type and the tensor
type the function states, along an equation that is an identity at every literal buffer. A value written and read
back inside the function goes there and back; the function's argument and its result are each moved once. -/

/-- There and back is the identity. -/
theorem ofBuf_toBuf {T : BufTy} (x : TRef sig T) (v : T.Contents (Elt Ideal)) : x.ofBuf (x.toBuf v) = v := by
  show cast _ (cast _ v) = v
  rw [cast_cast]
  exact cast_eq _ _

/-- At the three functions' arguments and results the move is the identity. -/
theorem ofBuf_v28 (h1 : main_v28.ty = ⟨S50000x128, .f32⟩) (h2 : main_v28.space ≠ .host) (h3 : main_v28.isScoped = false)
    (v : main_v28.ty.Contents (Elt Ideal)) : (TRef.of (T := ⟨S50000x128, .f32⟩) main_v28 h1 h2 h3).ofBuf v = v := rfl
theorem toBuf_v29 (h1 : main_v29.ty = ⟨S50000x128, .f32⟩) (h2 : main_v29.space ≠ .host) (h3 : main_v29.isScoped = false)
    (v : (⟨S50000x128, .f32⟩ : BufTy).Contents (Elt Ideal)) : (TRef.of (T := ⟨S50000x128, .f32⟩) main_v29 h1 h2 h3).toBuf v = v := rfl
theorem ofBuf_v54 (h1 : main_v54.ty = ⟨S50000x128, .f32⟩) (h2 : main_v54.space ≠ .host) (h3 : main_v54.isScoped = false)
    (v : main_v54.ty.Contents (Elt Ideal)) : (TRef.of (T := ⟨S50000x128, .f32⟩) main_v54 h1 h2 h3).ofBuf v = v := rfl
theorem toBuf_v55 (h1 : main_v55.ty = ⟨S50000x128, .f32⟩) (h2 : main_v55.space ≠ .host) (h3 : main_v55.isScoped = false)
    (v : (⟨S50000x128, .f32⟩ : BufTy).Contents (Elt Ideal)) : (TRef.of (T := ⟨S50000x128, .f32⟩) main_v55 h1 h2 h3).toBuf v = v := rfl
theorem ofBuf_v59 (h1 : main_v59.ty = ⟨S50000x2, .f32⟩) (h2 : main_v59.space ≠ .host) (h3 : main_v59.isScoped = false)
    (v : main_v59.ty.Contents (Elt Ideal)) : (TRef.of (T := ⟨S50000x2, .f32⟩) main_v59 h1 h2 h3).ofBuf v = v := rfl
theorem toBuf_v60 (h1 : main_v60.ty = ⟨S50000x2, .f32⟩) (h2 : main_v60.space ≠ .host) (h3 : main_v60.isScoped = false)
    (v : (⟨S50000x2, .f32⟩ : BufTy).Contents (Elt Ideal)) : (TRef.of (T := ⟨S50000x2, .f32⟩) main_v60 h1 h2 h3).toBuf v = v := rfl

end Cert.ReferenceIdeal.Whole

end
-- ==== Proof.RefStretchA.lean ====
/-
  The first stretch of the plain program, over whatever its buffers hold when it starts: it slices the edge list,
  counts the in-neighbours, sums their feature rows, and leaves the first layer of those.
-/
import proofs.«174961_j57131654972028_1_alg».proof.Proof.RefSplit

set_option maxRecDepth 16384

noncomputable section

namespace Cert.ReferenceIdeal.Whole

open Cert.ReferenceIdeal Cert.ReferenceIdeal.Gen Cert.ReferenceIdeal.ValueP Cert.ReferenceIdeal.Stages Cert.Dense
open Idealize.ShloMosaic Idealize.ShloMosaic.TcCoe Idealize.SL.Sem Idealize.ShloMosaic.StableHlo
open Cert.KernelIdeal.Chain (aggOf srcOf dstOf cntOf cntCol hidden1 hidden2 network)

variable (W : Valuation τ sig (Elt Ideal))

/-! ## The first stretch: the edges, the counts, the first aggregation and the first layer -/

theorem A_v29 : after opsA W (Proc.tc.devRef main_v29)
    = layerTerm (aggOf (W (Proc.tc.devRef main_arg0)) (srcOf (W (Proc.tc.devRef main_arg1))) (dstOf (W (Proc.tc.devRef main_arg1)))) (cntOf (dstOf (W (Proc.tc.devRef main_arg1))))
        (W (Proc.tc.devRef main_arg0)) (W (Proc.tc.devRef main_arg2)) (W (Proc.tc.devRef main_arg3)) (W (Proc.tc.devRef main_arg4)) := by
  simp only [opsA, ops, List.take_succ_cons, List.take_zero, List.drop_succ_cons, List.drop_zero]
  after_results_simp
  simp only [ofBuf_toBuf, ofBuf_v28, toBuf_v29, ofBuf_v54, toBuf_v55, ofBuf_v59, toBuf_v60]
  rfl
theorem A_v1 : after opsA W (Proc.tc.devRef main_v1) = srcOf (W (Proc.tc.devRef main_arg1)) := by
  simp only [opsA, ops, List.take_succ_cons, List.take_zero, List.drop_succ_cons, List.drop_zero]
  after_results_simp <;> rfl
theorem A_v3 : after opsA W (Proc.tc.devRef main_v3) = dstOf (W (Proc.tc.devRef main_arg1)) := by
  simp only [opsA, ops, List.take_succ_cons, List.take_zero, List.drop_succ_cons, List.drop_zero]
  after_results_simp <;> rfl
theorem A_arg5 : after opsA W (Proc.tc.devRef main_arg5) = W (Proc.tc.devRef main_arg5) := by
  simp only [opsA, ops, List.take_succ_cons, List.take_zero, List.drop_succ_cons, List.drop_zero]
  after_results_simp <;> rfl
theorem A_arg6 : after opsA W (Proc.tc.devRef main_arg6) = W (Proc.tc.devRef main_arg6) := by
  simp only [opsA, ops, List.take_succ_cons, List.take_zero, List.drop_succ_cons, List.drop_zero]
  after_results_simp <;> rfl
theorem A_arg7 : after opsA W (Proc.tc.devRef main_arg7) = W (Proc.tc.devRef main_arg7) := by
  simp only [opsA, ops, List.take_succ_cons, List.take_zero, List.drop_succ_cons, List.drop_zero]
  after_results_simp <;> rfl
theorem A_arg8 : after opsA W (Proc.tc.devRef main_arg8) = W (Proc.tc.devRef main_arg8) := by
  simp only [opsA, ops, List.take_succ_cons, List.take_zero, List.drop_succ_cons, List.drop_zero]
  after_results_simp <;> rfl
theorem A_arg9 : after opsA W (Proc.tc.devRef main_arg9) = W (Proc.tc.devRef main_arg9) := by
  simp only [opsA, ops, List.take_succ_cons, List.take_zero, List.drop_succ_cons, List.drop_zero]
  after_results_simp <;> rfl

end Cert.ReferenceIdeal.Whole

end
-- ==== Proof.RefStretchB.lean ====
/-
  The second stretch of the plain program, over whatever its buffers hold when it starts: the second aggregation, of
  the first layer's result along the same edges, and the second layer of it.
-/
import proofs.«174961_j57131654972028_1_alg».proof.Proof.RefSplit

set_option maxRecDepth 16384

noncomputable section

namespace Cert.ReferenceIdeal.Whole

open Cert.ReferenceIdeal Cert.ReferenceIdeal.Gen Cert.ReferenceIdeal.ValueP Cert.ReferenceIdeal.Stages Cert.Dense
open Idealize.ShloMosaic Idealize.ShloMosaic.TcCoe Idealize.SL.Sem Idealize.ShloMosaic.StableHlo
open Cert.KernelIdeal.Chain (aggOf srcOf dstOf cntOf cntCol hidden1 hidden2 network)

variable (W : Valuation τ sig (Elt Ideal))

/-! ## The second stretch: the second aggregation and the second layer -/

theorem B_v55 : after opsB W (Proc.tc.devRef main_v55)
    = layerTerm (aggOf (W (Proc.tc.devRef main_v29)) (W (Proc.tc.devRef main_v1)) (W (Proc.tc.devRef main_v3))) (cntOf (W (Proc.tc.devRef main_v3)))
        (W (Proc.tc.devRef main_v29)) (W (Proc.tc.devRef main_arg5)) (W (Proc.tc.devRef main_arg6)) (W (Proc.tc.devRef main_arg7)) := by
  simp only [opsB, ops, List.take_succ_cons, List.take_zero, List.drop_succ_cons, List.drop_zero]
  after_results_simp
  simp only [ofBuf_toBuf, ofBuf_v28, toBuf_v29, ofBuf_v54, toBuf_v55, ofBuf_v59, toBuf_v60]
  rfl
theorem B_arg8 : after opsB W (Proc.tc.devRef main_arg8) = W (Proc.tc.devRef main_arg8) := by
  simp only [opsB, ops, List.take_succ_cons, List.take_zero, List.drop_succ_cons, List.drop_zero]
  after_results_simp <;> rfl
theorem B_arg9 : after opsB W (Proc.tc.devRef main_arg9) = W (Proc.tc.devRef main_arg9) := by
  simp only [opsB, ops, List.take_succ_cons, List.take_zero, List.drop_succ_cons, List.drop_zero]
  after_results_simp <;> rfl

end Cert.ReferenceIdeal.Whole

end
-- ==== Proof.RefStretchC.lean ====
/-
  The third stretch of the plain program, over whatever its buffers hold when it starts: the classifier of the
  second layer's result.
-/
import proofs.«174961_j57131654972028_1_alg».proof.Proof.RefSplit

set_option maxRecDepth 16384

noncomputable section

namespace Cert.ReferenceIdeal.Whole

open Cert.ReferenceIdeal Cert.ReferenceIdeal.Gen Cert.ReferenceIdeal.ValueP Cert.ReferenceIdeal.Stages Cert.Dense
open Idealize.ShloMosaic Idealize.ShloMosaic.TcCoe Idealize.SL.Sem Idealize.ShloMosaic.StableHlo
open Cert.KernelIdeal.Chain (aggOf srcOf dstOf cntOf cntCol hidden1 hidden2 network)

variable (W : Valuation τ sig (Elt Ideal))

/-! ## The third stretch: the classifier -/

theorem C_v60 : after opsC W (Proc.tc.devRef main_v60) = clsTerm (W (Proc.tc.devRef main_v55)) (W (Proc.tc.devRef main_arg8)) (W (Proc.tc.devRef main_arg9)) := by
  simp only [opsC, ops, List.take_succ_cons, List.take_zero, List.drop_succ_cons, List.drop_zero]
  after_results_simp
  simp only [ofBuf_toBuf, ofBuf_v28, toBuf_v29, ofBuf_v54, toBuf_v55, ofBuf_v59, toBuf_v60]
  rfl

end Cert.ReferenceIdeal.Whole

end
-- ==== Proof.RefValue.lean ====
/-
  The plain program's result as one function of its arguments.

  Its 91 host operations are read in three stretches — up to the first layer's result (operation 38), from there to
  the second layer's (operation 72), and the classifier — each over the buffer contents the stretch starts from, so
  that no stretch's term is more than one dense stage deep: the first two stretches leave a layer of what they find
  (the edges sliced and the sums and counts scattered by the shared host chain), the last the classifier. Composed
  from the launch contents, and with each dense term read entry by entry, the result is the network of the arguments.
-/
import proofs.«174961_j57131654972028_1_alg».proof.Proof.RefStretchA
import proofs.«174961_j57131654972028_1_alg».proof.Proof.RefStretchB
import proofs.«174961_j57131654972028_1_alg».proof.Proof.RefStretchC

set_option maxRecDepth 16384

noncomputable section

namespace Cert.ReferenceIdeal.Whole

open Cert.ReferenceIdeal Cert.ReferenceIdeal.Gen Cert.ReferenceIdeal.ValueP Cert.ReferenceIdeal.Stages Cert.Dense
open Idealize.ShloMosaic Idealize.ShloMosaic.TcCoe Idealize.SL.Sem Idealize.ShloMosaic.StableHlo
open Cert.KernelIdeal.Chain (aggOf srcOf dstOf cntOf cntCol hidden1 hidden2 network)

/-! ## The whole fold -/

/-- From any contents `L`, the result buffer after all 91 operations holds the network of `L`'s argument arrays. -/
theorem value (L : Valuation τ sig (Elt Ideal)) : after (ops (F := Ideal)) L (Proc.tc.devRef main_v60)
    = network (L (Proc.tc.devRef main_arg0)) (L (Proc.tc.devRef main_arg1)) (L (Proc.tc.devRef main_arg2)) (L (Proc.tc.devRef main_arg3)) (L (Proc.tc.devRef main_arg4)) (L (Proc.tc.devRef main_arg5))
        (L (Proc.tc.devRef main_arg6)) (L (Proc.tc.devRef main_arg7)) (L (Proc.tc.devRef main_arg8)) (L (Proc.tc.devRef main_arg9)) := by
  rw [after_ops, C_v60, B_v55, B_arg8, B_arg9, A_v29, A_v1, A_v3, A_arg5, A_arg6, A_arg7, A_arg8, A_arg9,
    clsTerm_eq, layerTerm_eq, layerTerm_eq]
  rfl

end Cert.ReferenceIdeal.Whole

end
-- ==== Proof.lean ====
/-
  A two-layer graph network with a classifier, tiled over its 50000 nodes, computes what the plain program computes.

  Both programs slice the edge list into sources and destinations, count every node's in-neighbours, and, per layer,
  sum the in-neighbours' feature rows into every node: the same host operations in both, never opened here. On top of
  that each graph layer divides the summed rows by `max count 1`, multiplies by `Wl`, adds the node's own row times
  `Wr` and the bias, and clamps below at zero; the classifier multiplies by `Wc`, adds its bias, and takes the row-wise
  log-softmax. The tiled program runs each of these three dense stages in 25 points of 2000 rows; since every entry of
  a stage's result reads one row of the row-indexed operands, a point's result is the block of the stage taken over
  all rows, and the 25 blocks tile the array. The plain program runs the same stages over whole arrays. At the exact
  extended-real reading of the floats both results are one function of the arguments, `Chain.network`: the changes of
  float format are the identity, a matrix product into a zero accumulator is the sum over the contracted coordinate
  on both sides, the row maximum is the same fold of `max` from −∞, and no law is used that needs the entries finite.
  The tiled program's idealization rewrote no operation, so that conjunct is `True`; the three frames are the runs
  with the results dropped.
-/
import proofs.«174961_j57131654972028_1_alg».proof.Defs
import proofs.«174961_j57131654972028_1_alg».proof.Proof.Gen.Kernel
import proofs.«174961_j57131654972028_1_alg».proof.Proof.Gen.Kernel.Skeleton
import proofs.«174961_j57131654972028_1_alg».proof.Proof.Gen.Kernel.Launch
import proofs.«174961_j57131654972028_1_alg».proof.Proof.Gen.Kernel.Points
import proofs.«174961_j57131654972028_1_alg».proof.Proof.Gen.Kernel.Frame
import proofs.«174961_j57131654972028_1_alg».proof.Proof.Gen.KernelIdeal
import proofs.«174961_j57131654972028_1_alg».proof.Proof.Gen.KernelIdeal.Skeleton
import proofs.«174961_j57131654972028_1_alg».proof.Proof.Gen.KernelIdeal.Launch
import proofs.«174961_j57131654972028_1_alg».proof.Proof.Gen.KernelIdeal.Points
import proofs.«174961_j57131654972028_1_alg».proof.Proof.Gen.KernelIdeal.Frame
import proofs.«174961_j57131654972028_1_alg».proof.Proof.Gen.ReferenceIdeal
import proofs.«174961_j57131654972028_1_alg».proof.Proof.Gen.Pre_finite_inputs
import proofs.«174961_j57131654972028_1_alg».proof.Proof.KValue
import proofs.«174961_j57131654972028_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Chain (network)

/-- The word-level program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The plain program's run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with their result arrays at the network of those
    arguments: the tiled one by its run read back through its three stages, the plain one by its operations read
    back in three stretches. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Whole.value]
  show network (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
